-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![1, 0] · slices_S2x1600000_S1x1600000_1_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  main_v39

def fn_part1 {F : FTy → Type} [FloatOps F] (main_arg1 : IVec S2x1600000 32) (main_arg5 : FVec F S16 .f32) (main_arg6 : FVec F S16x40 .f32) (main_arg7 : FVec F S40 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x40 .f32 := Host.absf main_arg6
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x512 .f32) (main_arg1 : IVec S2x1600000 32) (main_arg2 : FVec F S512x64 .f32) (main_arg3 : FVec F S64 .f32) (main_arg4 : FVec F S64x16 .f32) (main_arg5 : FVec F S16 .f32) (main_arg6 : FVec F S16x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_arg6 main_arg7 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S4000x512 : Shape := ⟨2, ![4000, 512]⟩
abbrev S4000x64 : Shape := ⟨2, ![4000, 64]⟩
abbrev S1600000x64 : Shape := ⟨2, ![1600000, 64]⟩
abbrev S1x64 : Shape := ⟨2, ![1, 64]⟩
abbrev S4000x1 : Shape := ⟨2, ![4000, 1]⟩
abbrev S100000x16 : Shape := ⟨2, ![100000, 16]⟩
abbrev S4000x16 : Shape := ⟨2, ![4000, 16]⟩
abbrev S1600000x16 : Shape := ⟨2, ![1600000, 16]⟩
abbrev S1x16 : Shape := ⟨2, ![1, 16]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩

abbrev nBuf : Space → Nat
  | .hbm => 100
  | .vmem => 42
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S16x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x16, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x16, .f32⟩
  | .hbm, ⟨72, _⟩ => ⟨S1600000x1, .f32⟩
  | .hbm, ⟨73, _⟩ => ⟨S1600000x16, .f32⟩
  | .hbm, ⟨74, _⟩ => ⟨S1600000x16, .f32⟩
  | .hbm, ⟨75, _⟩ => ⟨S_, .f32⟩
  | .hbm, ⟨76, _⟩ => ⟨S100000x16, .f32⟩
  | .hbm, ⟨77, _⟩ => ⟨S1600000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x40, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x40, .f32⟩
  | .hbm, ⟨91, _⟩ => ⟨S1600000x1, .f32⟩
  | .hbm, ⟨92, _⟩ => ⟨S1600000x40, .f32⟩
  | .hbm, ⟨93, _⟩ => ⟨S1600000x40, .f32⟩
  | .hbm, ⟨94, _⟩ => ⟨S_, .f32⟩
  | .hbm, ⟨95, _⟩ => ⟨S100000x40, .f32⟩
  | .hbm, ⟨96, _⟩ => ⟨S1600000x1, .i32⟩
  | .hbm, ⟨97, _⟩ => ⟨S100000x40, .f32⟩
  | .hbm, ⟨98, _⟩ => ⟨S1x40, .f32⟩
  | .hbm, ⟨99, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x16, .f32⟩
  | .local _ .vmem, ⟨17, _⟩ => ⟨S4000x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S4000x16, .f32⟩
  | .local _ .vmem, ⟨22, _⟩ => ⟨S4000x16, .f32⟩
  | .local _ .vmem, ⟨23, _⟩ => ⟨S4000x1, .f32⟩
  | .local _ .vmem, ⟨24, _⟩ => ⟨S4000x1, .f32⟩
  | .local _ .vmem, ⟨25, _⟩ => ⟨S1x16, .f32⟩
  | .local _ .vmem, ⟨26, _⟩ => ⟨S4000x16, .f32⟩
  | .local _ .vmem, ⟨27, _⟩ => ⟨S4000x16, .f32⟩
  | .local _ .vmem, ⟨28, _⟩ => ⟨S4000x16, .f32⟩
  | .local _ .vmem, ⟨29, _⟩ => ⟨S4000x16, .f32⟩
  | .local _ .vmem, ⟨30, _⟩ => ⟨S16x40, .f32⟩
  | .local _ .vmem, ⟨31, _⟩ => ⟨S4000x40, .f32⟩
  | .local _ .vmem, ⟨32, _⟩ => ⟨S4000x40, .f32⟩
  | .local _ .vmem, ⟨33, _⟩ => ⟨S4000x40, .f32⟩
  | .local _ .vmem, ⟨34, _⟩ => ⟨S4000x40, .f32⟩
  | .local _ .vmem, ⟨35, _⟩ => ⟨S4000x40, .f32⟩
  | .local _ .vmem, ⟨36, _⟩ => ⟨S4000x40, .f32⟩
  | .local _ .vmem, ⟨37, _⟩ => ⟨S4000x1, .f32⟩
  | .local _ .vmem, ⟨38, _⟩ => ⟨S4000x1, .f32⟩
  | .local _ .vmem, ⟨39, _⟩ => ⟨S1x40, .f32⟩
  | .local _ .vmem, ⟨40, _⟩ => ⟨S4000x40, .f32⟩
  | .local _ .vmem, ⟨41, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x40 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x16_S64x16_0_0 : ∀ a, (![0, 0] : Fin 2 → Nat) a + S64x16.size a ≤ S64x16.size a
  h_S64x16 : 0 < S64x16.numel
  inb_S4000x16_S4000x16_0_0 : ∀ a, (![0, 0] : Fin 2 → Nat) a + S4000x16.size a ≤ S4000x16.size a
  h_S4000x16 : 0 < S4000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  broadcasts_S4000x1_S4000x40 : S4000x1.Broadcasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x16_S4000x16_1_0_0_1_n_n_wf : DotDims.WF S4000x64 S64x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S4000x16_S16x40_S4000x40_1_0_0_1_n_n_wf : DotDims.WF S4000x16 S16x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x16.size a ≤ S100000x16.size a
  hwx3_4 : ∀ i : grid3.Coords, EltTy.bits .f32 = 32 ∨ (Rect.block (s := S100000x16) S4000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S100000x16.size a
  hwx4_0 : ∀ i : grid4.Coords, EltTy.bits .f32 = 32 ∨ (Rect.block (s := S100000x16) S4000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x40.size a ≤ S16x40.size a
  hwx4_1 : ∀ i : grid4.Coords, EltTy.bits .f32 = 32 ∨ (Rect.block (s := S16x40) S16x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x40.size a ≤ S100000x40.size a
  hwx4_2 : ∀ i : grid4.Coords, EltTy.bits .f32 = 32 ∨ (Rect.block (s := S100000x40) S4000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x40.size a ≤ S100000x40.size a
  hwx5_0 : ∀ i : grid5.Coords, EltTy.bits .f32 = 32 ∨ (Rect.block (s := S100000x40) S4000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x40.size a ≤ S100000x40.size a
  hwx5_1 : ∀ i : grid5.Coords, EltTy.bits .f32 = 32 ∨ (Rect.block (s := S100000x40) S4000x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x40.size a ≤ S1x40.size a
  hwx5_3 : ∀ i : grid5.Coords, EltTy.bits .f32 = 32 ∨ (Rect.block (s := S1x40) S1x40.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x40.size a ≤ S100000x40.size a
  hwx5_4 : ∀ i : grid5.Coords, EltTy.bits .f32 = 32 ∨ (Rect.block (s := S100000x40) S4000x40.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S4000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S4000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S4000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S4000x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S4000x40.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 237
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x16, .f32⟩
  | 5 => ⟨S16, .f32⟩
  | 6 => ⟨S16x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x16, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x512, .f32⟩

abbrev hbmTy0_1 (i : Nat) : BufTy := match i % 128 with
  | 0 => ⟨S1600000x16, .f32⟩
  | 1 => ⟨S1600000x1, .f32⟩
  | 2 => ⟨S1600000x16, .f32⟩
  | 3 => ⟨S1600000x16, .f32⟩
  | 4 => ⟨S_, .f32⟩
  | 5 => ⟨S100000x16, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S100000x16, .f32⟩
  | 15 => ⟨S100000, .f32⟩
  | 16 => ⟨S100000x1, .f32⟩
  | 17 => ⟨S100000x16, .f32⟩
  | 18 => ⟨S100000x16, .f32⟩
  | 19 => ⟨S100000x16, .f32⟩
  | 20 => ⟨S1x16, .f32⟩
  | 21 => ⟨S100000x16, .f32⟩
  | 22 => ⟨S100000x16, .f32⟩
  | 23 => ⟨S_, .f32⟩
  | 24 => ⟨S100000x16, .f32⟩
  | 25 => ⟨S100000x16, .f32⟩
  | 26 => ⟨S100000x40, .f32⟩
  | 27 => ⟨S_, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S_, .f32⟩
  | 38 => ⟨S1600000, .f32⟩
  | 39 => ⟨S100000, .f32⟩
  | 40 => ⟨S_, .f32⟩
  | 41 => ⟨S100000, .f32⟩
  | 42 => ⟨S100000, .f32⟩
  | 43 => ⟨S100000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x40, .f32⟩
  | 72 => ⟨S1600000x1, .f32⟩
  | 73 => ⟨S1600000x40, .f32⟩
  | 74 => ⟨S1600000x40, .f32⟩
  | 75 => ⟨S_, .f32⟩
  | 76 => ⟨S100000x40, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S100000x40, .f32⟩
  | 86 => ⟨S100000, .f32⟩
  | 87 => ⟨S100000x1, .f32⟩
  | 88 => ⟨S100000x40, .f32⟩
  | 89 => ⟨S100000x40, .f32⟩
  | 90 => ⟨S100000x40, .f32⟩
  | 91 => ⟨S1x40, .f32⟩
  | 92 => ⟨S100000x40, .f32⟩
  | 93 => ⟨S100000x40, .f32⟩
  | 94 => ⟨S_, .f32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x40, .f32⟩
  | 101 => ⟨S100000x40, .f32⟩
  | 102 => ⟨S100000x40, .f32⟩
  | 103 => ⟨S_, .f32⟩
  | 104 => ⟨S100000, .f32⟩
  | 105 => ⟨S100000x1, .f32⟩
  | 106 => ⟨S100000x1, .f32⟩
  | 107 => ⟨S100000x40, .f32⟩
  | 108 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_c_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_c_22 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_c_24 : Ref sig .tc := ⟨.hbm, 134, rfl⟩
abbrev main_v98 : Ref sig .tc := ⟨.hbm, 135, rfl⟩
abbrev main_v99 : Ref sig .tc := ⟨.hbm, 136, rfl⟩
abbrev main_c_25 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call1_cst : Ref sig .tc := ⟨.hbm, 151, rfl⟩
abbrev main_call1_v0 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_c_27 : Ref sig .tc := ⟨.hbm, 157, rfl⟩
abbrev main_v116 : Ref sig .tc := ⟨.hbm, 158, rfl⟩
abbrev main_v117 : Ref sig .tc := ⟨.hbm, 159, rfl⟩
abbrev main_c_28 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_29 : Ref sig .tc := ⟨.hbm, 165, rfl⟩
abbrev main_v122 : Ref sig .tc := ⟨.hbm, 166, rfl⟩
abbrev main_v123 : Ref sig .tc := ⟨.hbm, 167, rfl⟩
abbrev main_cst_30 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_31 : Ref sig .tc := ⟨.hbm, 172, rfl⟩
abbrev main_v127 : Ref sig .tc := ⟨.hbm, 173, rfl⟩
abbrev main_v128 : Ref sig .tc := ⟨.hbm, 174, rfl⟩
abbrev main_c_32 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_33 : Ref sig .tc := ⟨.hbm, 181, rfl⟩
abbrev main_v134 : Ref sig .tc := ⟨.hbm, 182, rfl⟩
abbrev main_v135 : Ref sig .tc := ⟨.hbm, 183, rfl⟩
abbrev main_c_34 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_35 : Ref sig .tc := ⟨.hbm, 191, rfl⟩
abbrev main_v142 : Ref sig .tc := ⟨.hbm, 192, rfl⟩
abbrev main_v143 : Ref sig .tc := ⟨.hbm, 193, rfl⟩
abbrev main_c_36 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_37 : Ref sig .tc := ⟨.hbm, 203, rfl⟩
abbrev main_v152 : Ref sig .tc := ⟨.hbm, 204, rfl⟩
abbrev main_c_38 : Ref sig .tc := ⟨.hbm, 205, rfl⟩
abbrev main_v153 : Ref sig .tc := ⟨.hbm, 206, rfl⟩
abbrev main_v154 : Ref sig .tc := ⟨.hbm, 207, rfl⟩
abbrev main_c_39 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_call2_cst : Ref sig .tc := ⟨.hbm, 222, rfl⟩
abbrev main_call2_v0 : Ref sig .tc := ⟨.hbm, 223, rfl⟩
abbrev main_call2_cst_0 : Ref sig .tc := ⟨.hbm, 224, rfl⟩
abbrev main_call2_v1 : Ref sig .tc := ⟨.hbm, 225, rfl⟩
abbrev main_call2_v2 : Ref sig .tc := ⟨.hbm, 226, rfl⟩
abbrev main_call2_v3 : Ref sig .tc := ⟨.hbm, 227, rfl⟩
abbrev main_call2_v4 : Ref sig .tc := ⟨.hbm, 228, rfl⟩
abbrev main_call2_v5 : Ref sig .tc := ⟨.hbm, 229, rfl⟩
abbrev main_call2_v6 : Ref sig .tc := ⟨.hbm, 230, rfl⟩
abbrev main_call2_cst_1 : Ref sig .tc := ⟨.hbm, 231, rfl⟩
abbrev main_call2_v7 : Ref sig .tc := ⟨.hbm, 232, rfl⟩
abbrev main_call2_v8 : Ref sig .tc := ⟨.hbm, 233, rfl⟩
abbrev main_call2_v9 : Ref sig .tc := ⟨.hbm, 234, rfl⟩
abbrev main_call2_v10 : Ref sig .tc := ⟨.hbm, 235, rfl⟩
abbrev main_v168 : Ref sig .tc := ⟨.hbm, 236, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x512_S512x64_S100000x64_1_0_0_1_n_n_wf : DotDims.WF S100000x512 S512x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The kernel program's run with its result named.

  The program is six grid launches among four stretches of host operations. Every weakly fair execution ends, and
  the result array then holds what the last launch's write-backs leave of it: the contents of the result buffer at
  the last of the ten segment boundaries, a fold from the launch memory through the stretches and the launches.
  The argument arrays end as launched. The later modules read that fold back, boundary by boundary.
-/
import proofs.«175323_j78374563217803_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array as launched. -/
theorem run_value : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KValue

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«175323_j78374563217803_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.RegionMM0.lean ====
/-
  Launch 0 is a row-tiled matrix product.

  The launch walks the 100000 rows in 25 blocks of 4000; at each block the body multiplies the block's rows by the whole
  [512, 64] weight matrix into a zero accumulator (the operands' change of float format is the identity on the
  extended reals) and writes the 4000 product rows back. A row of a product depends on that row of the left operand
  only, so block by block the output array ends holding the product of the WHOLE [100000, 512] array with the weights.
-/
import proofs.«175323_j78374563217803_1_alg».proof.Proof.Gen.KernelIdeal.Frame
import proofs.«175323_j78374563217803_1_alg».proof.Proof.LibRowBlockMatmul
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The whole product: rows of `X` times `W`. -/
def prod0 (X : FVec Ideal ⟨2, ![100000, 512]⟩ .f32) (W : FVec Ideal ⟨2, ![512, 64]⟩ .f32) : FVec Ideal ⟨2, ![100000, 64]⟩ .f32 :=
  Host.dotGeneral (DotDims.plain 100000 512 64) none X W

/-- The body's product of a block at `(p, q)` is the whole product at `(r, q)` when the block's row `p` is the
    array's row `r` and the weight block is the weight matrix. -/
theorem pay0_at (X : FVec Ideal ⟨2, ![100000, 512]⟩ .f32) (W : FVec Ideal ⟨2, ![512, 64]⟩ .f32)
    (x0 : FVec Ideal ⟨2, ![4000, 512]⟩ .f32) (x1 : FVec Ideal ⟨2, ![512, 64]⟩ .f32) (p : Fin 4000) (q : Fin 64) (r : Fin 100000)
    (hX : ∀ k : Fin 512, x0 (ix2 p k) = X (ix2 r k)) (hW : ∀ k : Fin 512, x1 (ix2 k q) = W (ix2 k q)) :
    k0_pay1 (F := Ideal) x0 x1 (ix2 p q) = prod0 X W (ix2 r q) :=
  Cert.RowBlockMatmul.rowBlock_apply _ X W x0 x1 p q r hX hW

/-- The index maps over the grid: block `t` of the left operand and of the output start at row `4000 · t`; the
    weights' block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 4000000 in
/-- What point `t` writes back is block `t` of the whole product. -/
theorem flushed0_eq (c : Dev nD) (t : Fin cfg0.N) :
    (dat0 V c).flushed 2 t = ((cfg0.win 2).blk t).view.read (Elt Ideal)
      (prod0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S4000x512) hz0, View.ld_unit_zero (S := S512x64) hz0]
  obtain ⟨e0, e1, e2, e3, e4, e5⟩ := idx_facts0 t
  funext j
  obtain ⟨p, q, rfl⟩ : ∃ (p : Fin 4000) (q : Fin 64), j = ix2 p q := ⟨j 0, j 1, eq_ix2 j⟩
  have hp := p.isLt; have hq := q.isLt; have ht : t.val < 25 := t.isLt
  have hr : t.val * 4000 + p.val < 100000 := by omega
  show k0_pay1 (F := Ideal) (iblk0 V c 0 t) (iblk0 V c 1 t) (ix2 p q)
    = prod0 (V c (Pipeline.arrRef spec0 0)) (V c (Pipeline.arrRef spec0 1)) (((cfg0.win 2).blk t).view.emb (ix2 p q))
  have hemb : ((cfg0.win 2).blk t).view.emb (ix2 p q) = ix2 (⟨t.val * 4000 + p.val, hr⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 64 + 1 * q.val = q.val; omega
  rw [hemb]
  refine pay0_at (V c (Pipeline.arrRef spec0 0)) (V c (Pipeline.arrRef spec0 1)) (iblk0 V c 0 t) (iblk0 V c 1 t) p q
    ⟨t.val * 4000 + p.val, hr⟩ (fun k => ?_) (fun k => ?_)
  · show V c (Pipeline.arrRef spec0 0) (((cfg0.win 0).blk t).view.emb (ix2 p k)) = _
    refine congrArg (V c (Pipeline.arrRef spec0 0)) ?_
    funext a; apply Fin.ext
    have hk := k.isLt
    match a with
    | ⟨0, _⟩ => show win0_0.index t (0 : Fin 2) * 4000 + 1 * p.val = t.val * 4000 + p.val; omega
    | ⟨1, _⟩ => show win0_0.index t (1 : Fin 2) * 512 + 1 * k.val = k.val; omega
  · show V c (Pipeline.arrRef spec0 1) (((cfg0.win 1).blk t).view.emb (ix2 k q)) = _
    refine congrArg (V c (Pipeline.arrRef spec0 1)) ?_
    funext a; apply Fin.ext
    have hk := k.isLt
    match a with
    | ⟨0, _⟩ => show win0_1.index t (0 : Fin 2) * 512 + 1 * k.val = k.val; omega
    | ⟨1, _⟩ => show win0_1.index t (1 : Fin 2) * 64 + 1 * q.val = q.val; omega

/-- An index of the output array is in point `t`'s block iff its row is one of the block's 4000 rows. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v28).slice (win0_2.rect t)).set ↔ _
  rw [View.set_slice_whole, Rect.mem_set_unit]
  exact Iff.rfl

/-- Every row lies in the block of the point `row / 4000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 4000, by show _ < 25; omega⟩, flush0_2 _, ?_⟩
  rw [mem_blk0]
  obtain ⟨e0, e1, e2, e3, e4, e5⟩ := idx_facts0 ⟨(i 0).val / 4000, by show _ < 25; omega⟩
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ _ ∧ _ < (i 0).val / 4000 * 4000 + 4000; omega
  | ⟨1, _⟩ => show win0_2.index _ (1 : Fin 2) * 64 ≤ (i 1).val ∧ (i 1).val < win0_2.index _ (1 : Fin 2) * 64 + 64; rw [e5]; omega

/-- THE OUTPUT ARRAY after the launch: the whole product of the launch's two input arrays as it found them. -/
theorem final0 (c : Dev nD) : (dat0 V c).arrAt 2 cfg0.N
    = prod0 (V c (Pipeline.arrRef spec0 0)) (V c (Pipeline.arrRef spec0 1)) :=
  (dat0 V c).arrAt_eq_of_cover 2 _ (fun t _ => flushed0_eq V c t) (cover0)

end Cert.KernelIdeal.KValue

end
-- ==== Proof.RegionMM2.lean ====
/-
  Launch 2 is a row-tiled matrix product.

  The launch walks the 100000 rows in 25 blocks of 4000; at each block the body multiplies the block's rows by the whole
  [64, 16] weight matrix into a zero accumulator (the operands' change of float format is the identity on the
  extended reals) and writes the 4000 product rows back. A row of a product depends on that row of the left operand
  only, so block by block the output array ends holding the product of the WHOLE [100000, 64] array with the weights.
-/
import proofs.«175323_j78374563217803_1_alg».proof.Proof.Gen.KernelIdeal.Frame
import proofs.«175323_j78374563217803_1_alg».proof.Proof.LibRowBlockMatmul
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The whole product: rows of `X` times `W`. -/
def prod2 (X : FVec Ideal ⟨2, ![100000, 64]⟩ .f32) (W : FVec Ideal ⟨2, ![64, 16]⟩ .f32) : FVec Ideal ⟨2, ![100000, 16]⟩ .f32 :=
  Host.dotGeneral (DotDims.plain 100000 64 16) none X W

/-- The body's product of a block at `(p, q)` is the whole product at `(r, q)` when the block's row `p` is the
    array's row `r` and the weight block is the weight matrix. -/
theorem pay2_at (X : FVec Ideal ⟨2, ![100000, 64]⟩ .f32) (W : FVec Ideal ⟨2, ![64, 16]⟩ .f32)
    (x0 : FVec Ideal ⟨2, ![4000, 64]⟩ .f32) (x1 : FVec Ideal ⟨2, ![64, 16]⟩ .f32) (p : Fin 4000) (q : Fin 16) (r : Fin 100000)
    (hX : ∀ k : Fin 64, x0 (ix2 p k) = X (ix2 r k)) (hW : ∀ k : Fin 64, x1 (ix2 k q) = W (ix2 k q)) :
    k2_pay1 (F := Ideal) x0 x1 (ix2 p q) = prod2 X W (ix2 r q) := by
  have e : k2_pay1 (F := Ideal) x0 x1 = FloatOps.matmul (F := Ideal) (DotDims.plain 4000 64 16) none x0 x1
      (constant ⟨2, ![4000, 16]⟩ .f32 0x00000000#32) := by
    unfold k2_pay1; simp only [shapeCast_self]; rfl
  rw [e]
  exact Cert.RowBlockMatmul.rowBlock_apply _ X W x0 x1 p q r hX hW

/-- The index maps over the grid: block `t` of the left operand and of the output start at row `4000 · t`; the
    weights' block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 4000000 in
/-- What point `t` writes back is block `t` of the whole product. -/
theorem flushed2_eq (c : Dev nD) (t : Fin cfg2.N) :
    (dat2 V c).flushed 2 t = ((cfg2.win 2).blk t).view.read (Elt Ideal)
      (prod2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S4000x64) hz2, View.ld_unit_zero (S := S64x16) hz2]
  obtain ⟨e0, e1, e2, e3, e4, e5⟩ := idx_facts2 t
  funext j
  obtain ⟨p, q, rfl⟩ : ∃ (p : Fin 4000) (q : Fin 16), j = ix2 p q := ⟨j 0, j 1, eq_ix2 j⟩
  have hp := p.isLt; have hq := q.isLt; have ht : t.val < 25 := t.isLt
  have hr : t.val * 4000 + p.val < 100000 := by omega
  show k2_pay1 (F := Ideal) (iblk2 V c 0 t) (iblk2 V c 1 t) (ix2 p q)
    = prod2 (V c (Pipeline.arrRef spec2 0)) (V c (Pipeline.arrRef spec2 1)) (((cfg2.win 2).blk t).view.emb (ix2 p q))
  have hemb : ((cfg2.win 2).blk t).view.emb (ix2 p q) = ix2 (⟨t.val * 4000 + p.val, hr⟩ : Fin 100000) q := by
    funext a; apply Fin.ext
    match a with
    | ⟨0, _⟩ => show win2_2.index t (0 : Fin 2) * 4000 + 1 * p.val = t.val * 4000 + p.val; omega
    | ⟨1, _⟩ => show win2_2.index t (1 : Fin 2) * 16 + 1 * q.val = q.val; omega
  rw [hemb]
  refine pay2_at (V c (Pipeline.arrRef spec2 0)) (V c (Pipeline.arrRef spec2 1)) (iblk2 V c 0 t) (iblk2 V c 1 t) p q
    ⟨t.val * 4000 + p.val, hr⟩ (fun k => ?_) (fun k => ?_)
  · show V c (Pipeline.arrRef spec2 0) (((cfg2.win 0).blk t).view.emb (ix2 p k)) = _
    refine congrArg (V c (Pipeline.arrRef spec2 0)) ?_
    funext a; apply Fin.ext
    have hk := k.isLt
    match a with
    | ⟨0, _⟩ => show win2_0.index t (0 : Fin 2) * 4000 + 1 * p.val = t.val * 4000 + p.val; omega
    | ⟨1, _⟩ => show win2_0.index t (1 : Fin 2) * 64 + 1 * k.val = k.val; omega
  · show V c (Pipeline.arrRef spec2 1) (((cfg2.win 1).blk t).view.emb (ix2 k q)) = _
    refine congrArg (V c (Pipeline.arrRef spec2 1)) ?_
    funext a; apply Fin.ext
    have hk := k.isLt
    match a with
    | ⟨0, _⟩ => show win2_1.index t (0 : Fin 2) * 64 + 1 * k.val = k.val; omega
    | ⟨1, _⟩ => show win2_1.index t (1 : Fin 2) * 16 + 1 * q.val = q.val; omega

/-- An index of the output array is in point `t`'s block iff its row is one of the block's 4000 rows. -/
theorem mem_blk2 (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v44).slice (win2_2.rect t)).set ↔ _
  rw [View.set_slice_whole, Rect.mem_set_unit]
  exact Iff.rfl

/-- Every row lies in the block of the point `row / 4000`. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  refine ⟨⟨(i 0).val / 4000, by show _ < 25; omega⟩, flush2_2 _, ?_⟩
  rw [mem_blk2]
  obtain ⟨e0, e1, e2, e3, e4, e5⟩ := idx_facts2 ⟨(i 0).val / 4000, by show _ < 25; omega⟩
  intro a
  match a with
  | ⟨0, _⟩ => show win2_2.index _ (0 : Fin 2) * 4000 ≤ (i 0).val ∧ (i 0).val < win2_2.index _ (0 : Fin 2) * 4000 + 4000; rw [e4]; show (i 0).val / 4000 * 4000 ≤ _ ∧ _ < (i 0).val / 4000 * 4000 + 4000; omega
  | ⟨1, _⟩ => show win2_2.index _ (1 : Fin 2) * 16 ≤ (i 1).val ∧ (i 1).val < win2_2.index _ (1 : Fin 2) * 16 + 16; rw [e5]; omega

/-- THE OUTPUT ARRAY after the launch: the whole product of the launch's two input arrays as it found them. -/
theorem final2 (c : Dev nD) : (dat2 V c).arrAt 2 cfg2.N
    = prod2 (V c (Pipeline.arrRef spec2 0)) (V c (Pipeline.arrRef spec2 1)) :=
  (dat2 V c).arrAt_eq_of_cover 2 _ (fun t _ => flushed2_eq V c t) (cover2)

end Cert.KernelIdeal.KValue

end
-- ==== Proof.RegionMM4.lean ====
/-
  Launch 4 is a row-tiled matrix product.

  The launch walks the 100000 rows in 25 blocks of 4000; at each block the body multiplies the block's rows by the whole
  [16, 40] weight matrix into a zero accumulator (the operands' change of float format is the identity on the
  extended reals) and writes the 4000 product rows back. A row of a product depends on that row of the left operand
  only, so block by block the output array ends holding the product of the WHOLE [100000, 16] array with the weights.
-/
import proofs.«175323_j78374563217803_1_alg».proof.Proof.Gen.KernelIdeal.Frame
import proofs.«175323_j78374563217803_1_alg».proof.Proof.LibRowBlockMatmul
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The whole product: rows of `X` times `W`. -/
def prod4 (X : FVec Ideal ⟨2, ![100000, 16]⟩ .f32) (W : FVec Ideal ⟨2, ![16, 40]⟩ .f32) : FVec Ideal ⟨2, ![100000, 40]⟩ .f32 :=
  Host.dotGeneral (DotDims.plain 100000 16 40) none X W

/-- The body's product of a block at `(p, q)` is the whole product at `(r, q)` when the block's row `p` is the
    array's row `r` and the weight block is the weight matrix. -/
theorem pay4_at (X : FVec Ideal ⟨2, ![100000, 16]⟩ .f32) (W : FVec Ideal ⟨2, ![16, 40]⟩ .f32)
    (x0 : FVec Ideal ⟨2, ![4000, 16]⟩ .f32) (x1 : FVec Ideal ⟨2, ![16, 40]⟩ .f32) (p : Fin 4000) (q : Fin 40) (r : Fin 100000)
    (hX : ∀ k : Fin 16, x0 (ix2 p k) = X (ix2 r k)) (hW : ∀ k : Fin 16, x1 (ix2 k q) = W (ix2 k q)) :
    k4_pay1 (F := Ideal) x0 x1 (ix2 p q) = prod4 X W (ix2 r q) := by
  have e : k4_pay1 (F := Ideal) x0 x1 = FloatOps.matmul (F := Ideal) (DotDims.plain 4000 16 40) none x0 x1
      (constant ⟨2, ![4000, 40]⟩ .f32 0x00000000#32) := by
    unfold k4_pay1; simp only [shapeCast_self]; rfl
  rw [e]
  exact Cert.RowBlockMatmul.rowBlock_apply _ X W x0 x1 p q r hX hW

/-- The index maps over the grid: block `t` of the left operand and of the output start at row `4000 · t`; the
    weights' block is the whole matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What point `t` writes back is block `t` of the whole product. -/
theorem flushed4_eq (c : Dev nD) (t : Fin cfg4.N) :
    (dat4 V c).flushed 2 t = ((cfg4.win 2).blk t).view.read (Elt Ideal)
      (prod4 (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S4000x16) hz4, View.ld_unit_zero (S := S16x40) hz4]
  obtain ⟨e0, e1, e2, e3, e4, e5⟩ := idx_facts4 t
  funext j
  obtain ⟨p, q, rfl⟩ : ∃ (p : Fin 4000) (q : Fin 40), j = ix2 p q := ⟨j 0, j 1, eq_ix2 j⟩
  have hp := p.isLt; have hq := q.isLt; have ht : t.val < 25 := t.isLt
  have hr : t.val * 4000 + p.val < 100000 := by omega
  show k4_pay1 (F := Ideal) (iblk4 V c 0 t) (iblk4 V c 1 t) (ix2 p q)
    = prod4 (V c (Pipeline.arrRef spec4 0)) (V c (Pipeline.arrRef spec4 1)) (((cfg4.win 2).blk t).view.emb (ix2 p q))
  have hemb : ((cfg4.win 2).blk t).view.emb (ix2 p q) = ix2 (⟨t.val * 4000 + p.val, hr⟩ : Fin 100000) q := by
    funext a; apply Fin.ext
    match a with
    | ⟨0, _⟩ => show win4_2.index t (0 : Fin 2) * 4000 + 1 * p.val = t.val * 4000 + p.val; omega
    | ⟨1, _⟩ => show win4_2.index t (1 : Fin 2) * 40 + 1 * q.val = q.val; omega
  rw [hemb]
  refine pay4_at (V c (Pipeline.arrRef spec4 0)) (V c (Pipeline.arrRef spec4 1)) (iblk4 V c 0 t) (iblk4 V c 1 t) p q
    ⟨t.val * 4000 + p.val, hr⟩ (fun k => ?_) (fun k => ?_)
  · show V c (Pipeline.arrRef spec4 0) (((cfg4.win 0).blk t).view.emb (ix2 p k)) = _
    refine congrArg (V c (Pipeline.arrRef spec4 0)) ?_
    funext a; apply Fin.ext
    have hk := k.isLt
    match a with
    | ⟨0, _⟩ => show win4_0.index t (0 : Fin 2) * 4000 + 1 * p.val = t.val * 4000 + p.val; omega
    | ⟨1, _⟩ => show win4_0.index t (1 : Fin 2) * 16 + 1 * k.val = k.val; omega
  · show V c (Pipeline.arrRef spec4 1) (((cfg4.win 1).blk t).view.emb (ix2 k q)) = _
    refine congrArg (V c (Pipeline.arrRef spec4 1)) ?_
    funext a; apply Fin.ext
    have hk := k.isLt
    match a with
    | ⟨0, _⟩ => show win4_1.index t (0 : Fin 2) * 16 + 1 * k.val = k.val; omega
    | ⟨1, _⟩ => show win4_1.index t (1 : Fin 2) * 40 + 1 * q.val = q.val; omega

/-- An index of the output array is in point `t`'s block iff its row is one of the block's 4000 rows. -/
theorem mem_blk4 (t : Fin cfg4.N) (i : S100000x40.Idx) :
    i ∈ ((cfg4.win 2).blk t).view.set ↔ ∀ a : Fin 2, win4_2.index t a * S4000x40.size a ≤ (i a).val ∧ (i a).val < win4_2.index t a * S4000x40.size a + S4000x40.size a := by
  show i ∈ ((View.whole main_v60).slice (win4_2.rect t)).set ↔ _
  rw [View.set_slice_whole, Rect.mem_set_unit]
  exact Iff.rfl

/-- Every row lies in the block of the point `row / 4000`. -/
theorem cover4 (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  refine ⟨⟨(i 0).val / 4000, by show _ < 25; omega⟩, flush4_2 _, ?_⟩
  rw [mem_blk4]
  obtain ⟨e0, e1, e2, e3, e4, e5⟩ := idx_facts4 ⟨(i 0).val / 4000, by show _ < 25; omega⟩
  intro a
  match a with
  | ⟨0, _⟩ => show win4_2.index _ (0 : Fin 2) * 4000 ≤ (i 0).val ∧ (i 0).val < win4_2.index _ (0 : Fin 2) * 4000 + 4000; rw [e4]; show (i 0).val / 4000 * 4000 ≤ _ ∧ _ < (i 0).val / 4000 * 4000 + 4000; omega
  | ⟨1, _⟩ => show win4_2.index _ (1 : Fin 2) * 40 ≤ (i 1).val ∧ (i 1).val < win4_2.index _ (1 : Fin 2) * 40 + 40; rw [e5]; omega

/-- THE OUTPUT ARRAY after the launch: the whole product of the launch's two input arrays as it found them. -/
theorem final4 (c : Dev nD) : (dat4 V c).arrAt 2 cfg4.N
    = prod4 (V c (Pipeline.arrRef spec4 0)) (V c (Pipeline.arrRef spec4 1)) :=
  (dat4 V c).arrAt_eq_of_cover 2 _ (fun t _ => flushed4_eq V c t) (cover4)

end Cert.KernelIdeal.KValue

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.RegionCB1.lean ====
/-
  Launch 1 adds the self-loop term and the bias to the aggregated messages and clamps at zero.

  At each of the 25 blocks of 4000 rows the body computes, entry by entry,
  max ((agg + h · w) + b, 0): `agg` and `h` are the block's rows of the aggregated messages and of the projected
  features, `w` the block's rows of the one-column self-loop weight repeated across the 64 features, and `b` the one
  bias row repeated down the rows. Every entry depends on the same row and column of the whole arrays, so block by
  block the output array ends holding that one function of the four whole arrays.
-/
import proofs.«175323_j78374563217803_1_alg».proof.Proof.Gen.KernelIdeal.Frame
import proofs.«175323_j78374563217803_1_alg».proof.Proof.LibKeepdimsColumn
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- max ((agg + h · w) + b, 0) at row `r`, feature `q`. -/
def combAt1 (agg h : FVec Ideal ⟨2, ![100000, 64]⟩ .f32) (w : FVec Ideal ⟨2, ![100000, 1]⟩ .f32) (b : FVec Ideal ⟨2, ![1, 64]⟩ .f32)
    (r : Fin 100000) (q : Fin 64) : Ideal .f32 :=
  FloatOps.maximumf (FloatOps.addf (FloatOps.addf (agg (ix2 r q)) (FloatOps.mulf (h (ix2 r q)) (w (ix2 r (0 : Fin 1)))))
    (b (ix2 (0 : Fin 1) q))) (Scalar.ofBits .f32 0x00000000#32)

/-- The whole output array. -/
def comb1 (agg h : FVec Ideal ⟨2, ![100000, 64]⟩ .f32) (w : FVec Ideal ⟨2, ![100000, 1]⟩ .f32) (b : FVec Ideal ⟨2, ![1, 64]⟩ .f32) :
    FVec Ideal ⟨2, ![100000, 64]⟩ .f32 :=
  fun i => combAt1 agg h w b ⟨(i 0).val, (i 0).isLt⟩ ⟨(i 1).val, (i 1).isLt⟩

theorem comb1_ix2 (agg h : FVec Ideal ⟨2, ![100000, 64]⟩ .f32) (w : FVec Ideal ⟨2, ![100000, 1]⟩ .f32) (b : FVec Ideal ⟨2, ![1, 64]⟩ .f32)
    (r : Fin 100000) (q : Fin 64) : comb1 agg h w b (ix2 r q) = combAt1 agg h w b r q := rfl

/-- The body's value at `(p, q)` of a block, from the four blocks it loads. -/
theorem pay1_at (x0 x2 : FVec Ideal ⟨2, ![4000, 64]⟩ .f32) (x4 : FVec Ideal ⟨2, ![4000, 1]⟩ .f32) (x9 : FVec Ideal ⟨2, ![1, 64]⟩ .f32)
    (p : Fin 4000) (q : Fin 64) :
    k1_pay1 (F := Ideal) x0 x2 x4 x9 (ix2 p q)
      = FloatOps.maximumf (FloatOps.addf (FloatOps.addf (x0 (ix2 p q)) (FloatOps.mulf (x2 (ix2 p q)) (x4 (ix2 p (0 : Fin 1)))))
          (x9 (ix2 (0 : Fin 1) q))) (Scalar.ofBits .f32 0x00000000#32) := by
  unfold k1_pay1
  simp only [shapeCast_self]
  show FloatOps.maximumf (FloatOps.addf (FloatOps.addf (x0 (ix2 p q)) (FloatOps.mulf (x2 (ix2 p q))
      (broadcastTo S4000x64 x4 broadcasts_S4000x1_S4000x64 (ix2 p q))))
      (broadcastTo S4000x64 x9 broadcasts_S1x64_S4000x64 (ix2 p q))) (Scalar.ofBits .f32 0x00000000#32) = _
  rw [KeepdimsColumn.broadcastTo_a1_ab_apply, broadcastTo_1b_ab_apply]

/-- The index maps over the grid: the three row-blocked inputs and the output start at row `4000 · t`; the bias row's
    block is the whole row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 4000000 in
/-- What point `t` writes back is block `t` of the whole output array. -/
theorem flushed1_eq (c : Dev nD) (t : Fin cfg1.N) :
    (dat1 V c).flushed 4 t = ((cfg1.win 4).blk t).view.read (Elt Ideal)
      (comb1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz1]
  simp only [View.ld_unit_zero (S := S4000x64) hz1, View.ld_unit_zero (S := S4000x1) hz1, View.ld_unit_zero (S := S1x64) hz1]
  obtain ⟨e0, e1, e2, e3, e4, e5, e6, e7, e8, e9⟩ := idx_facts1 t
  funext j
  obtain ⟨p, q, rfl⟩ : ∃ (p : Fin 4000) (q : Fin 64), j = ix2 p q := ⟨j 0, j 1, eq_ix2 j⟩
  have hp := p.isLt; have hq := q.isLt; have ht : t.val < 25 := t.isLt
  have hr : t.val * 4000 + p.val < 100000 := by omega
  show k1_pay1 (F := Ideal) (iblk1 V c 0 t) (iblk1 V c 1 t) (iblk1 V c 2 t) (iblk1 V c 3 t) (ix2 p q)
    = comb1 (V c (Pipeline.arrRef spec1 0)) (V c (Pipeline.arrRef spec1 1)) (V c (Pipeline.arrRef spec1 2)) (V c (Pipeline.arrRef spec1 3))
        (((cfg1.win 4).blk t).view.emb (ix2 p q))
  have hemb : ((cfg1.win 4).blk t).view.emb (ix2 p q) = ix2 (⟨t.val * 4000 + p.val, hr⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 64 + 1 * q.val = q.val; omega
  have h0 : iblk1 V c 0 t (ix2 p q) = V c (Pipeline.arrRef spec1 0) (ix2 (⟨t.val * 4000 + p.val, hr⟩ : Fin 100000) q) := by
    show V c (Pipeline.arrRef spec1 0) (((cfg1.win 0).blk t).view.emb (ix2 p q)) = _
    refine congrArg (V c (Pipeline.arrRef spec1 0)) ?_
    funext a; apply Fin.ext
    match a with
    | ⟨0, _⟩ => show win1_0.index t (0 : Fin 2) * 4000 + 1 * p.val = t.val * 4000 + p.val; omega
    | ⟨1, _⟩ => show win1_0.index t (1 : Fin 2) * 64 + 1 * q.val = q.val; omega
  have h1 : iblk1 V c 1 t (ix2 p q) = V c (Pipeline.arrRef spec1 1) (ix2 (⟨t.val * 4000 + p.val, hr⟩ : Fin 100000) q) := by
    show V c (Pipeline.arrRef spec1 1) (((cfg1.win 1).blk t).view.emb (ix2 p q)) = _
    refine congrArg (V c (Pipeline.arrRef spec1 1)) ?_
    funext a; apply Fin.ext
    match a with
    | ⟨0, _⟩ => show win1_1.index t (0 : Fin 2) * 4000 + 1 * p.val = t.val * 4000 + p.val; omega
    | ⟨1, _⟩ => show win1_1.index t (1 : Fin 2) * 64 + 1 * q.val = q.val; omega
  have h2 : iblk1 V c 2 t (ix2 p (0 : Fin 1)) = V c (Pipeline.arrRef spec1 2) (ix2 (⟨t.val * 4000 + p.val, hr⟩ : Fin 100000) (0 : Fin 1)) := by
    show V c (Pipeline.arrRef spec1 2) (((cfg1.win 2).blk t).view.emb (ix2 p (0 : Fin 1))) = _
    refine congrArg (V c (Pipeline.arrRef spec1 2)) ?_
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  have h3 : iblk1 V c 3 t (ix2 (0 : Fin 1) q) = V c (Pipeline.arrRef spec1 3) (ix2 (0 : Fin 1) q) := by
    show V c (Pipeline.arrRef spec1 3) (((cfg1.win 3).blk t).view.emb (ix2 (0 : Fin 1) q)) = _
    refine congrArg (V c (Pipeline.arrRef spec1 3)) ?_
    funext a; apply Fin.ext
    match a with
    | ⟨0, _⟩ => show win1_3.index t (0 : Fin 2) * 1 + 1 * 0 = 0; omega
    | ⟨1, _⟩ => show win1_3.index t (1 : Fin 2) * 64 + 1 * q.val = q.val; omega
  rw [hemb, comb1_ix2]
  refine (pay1_at (iblk1 V c 0 t) (iblk1 V c 1 t) (iblk1 V c 2 t) (iblk1 V c 3 t) p q).trans ?_
  rw [h0, h1, h2, h3]
  rfl

/-- An index of the output array is in point `t`'s block iff its row is one of the block's 4000 rows. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v43).slice (win1_4.rect t)).set ↔ _
  rw [View.set_slice_whole, Rect.mem_set_unit]
  exact Iff.rfl

/-- Every row lies in the block of the point `row / 4000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 4000, by show _ < 25; omega⟩, flush1_4 _, ?_⟩
  rw [mem_blk1]
  obtain ⟨e0, e1, e2, e3, e4, e5, e6, e7, e8, e9⟩ := idx_facts1 ⟨(i 0).val / 4000, by show _ < 25; omega⟩
  intro a
  match a with
  | ⟨0, _⟩ => show win1_4.index _ (0 : Fin 2) * 4000 ≤ (i 0).val ∧ (i 0).val < win1_4.index _ (0 : Fin 2) * 4000 + 4000; rw [e8]; show (i 0).val / 4000 * 4000 ≤ _ ∧ _ < (i 0).val / 4000 * 4000 + 4000; omega
  | ⟨1, _⟩ => show win1_4.index _ (1 : Fin 2) * 64 ≤ (i 1).val ∧ (i 1).val < win1_4.index _ (1 : Fin 2) * 64 + 64; rw [e9]; omega

/-- THE OUTPUT ARRAY after the launch: the one function of the launch's four input arrays as it found them. -/
theorem final1 (c : Dev nD) : (dat1 V c).arrAt 4 cfg1.N
    = comb1 (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) (cover1)

end Cert.KernelIdeal.KValue

end
-- ==== Proof.RegionCB3.lean ====
/-
  Launch 3 adds the self-loop term and the bias to the aggregated messages and clamps at zero.

  At each of the 25 blocks of 4000 rows the body computes, entry by entry,
  max ((agg + h · w) + b, 0): `agg` and `h` are the block's rows of the aggregated messages and of the projected
  features, `w` the block's rows of the one-column self-loop weight repeated across the 16 features, and `b` the one
  bias row repeated down the rows. Every entry depends on the same row and column of the whole arrays, so block by
  block the output array ends holding that one function of the four whole arrays.
-/
import proofs.«175323_j78374563217803_1_alg».proof.Proof.Gen.KernelIdeal.Frame
import proofs.«175323_j78374563217803_1_alg».proof.Proof.LibKeepdimsColumn
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- max ((agg + h · w) + b, 0) at row `r`, feature `q`. -/
def combAt3 (agg h : FVec Ideal ⟨2, ![100000, 16]⟩ .f32) (w : FVec Ideal ⟨2, ![100000, 1]⟩ .f32) (b : FVec Ideal ⟨2, ![1, 16]⟩ .f32)
    (r : Fin 100000) (q : Fin 16) : Ideal .f32 :=
  FloatOps.maximumf (FloatOps.addf (FloatOps.addf (agg (ix2 r q)) (FloatOps.mulf (h (ix2 r q)) (w (ix2 r (0 : Fin 1)))))
    (b (ix2 (0 : Fin 1) q))) (Scalar.ofBits .f32 0x00000000#32)

/-- The whole output array. -/
def comb3 (agg h : FVec Ideal ⟨2, ![100000, 16]⟩ .f32) (w : FVec Ideal ⟨2, ![100000, 1]⟩ .f32) (b : FVec Ideal ⟨2, ![1, 16]⟩ .f32) :
    FVec Ideal ⟨2, ![100000, 16]⟩ .f32 :=
  fun i => combAt3 agg h w b ⟨(i 0).val, (i 0).isLt⟩ ⟨(i 1).val, (i 1).isLt⟩

theorem comb3_ix2 (agg h : FVec Ideal ⟨2, ![100000, 16]⟩ .f32) (w : FVec Ideal ⟨2, ![100000, 1]⟩ .f32) (b : FVec Ideal ⟨2, ![1, 16]⟩ .f32)
    (r : Fin 100000) (q : Fin 16) : comb3 agg h w b (ix2 r q) = combAt3 agg h w b r q := rfl

/-- The body's value at `(p, q)` of a block, from the four blocks it loads. -/
theorem pay3_at (x0 x2 : FVec Ideal ⟨2, ![4000, 16]⟩ .f32) (x4 : FVec Ideal ⟨2, ![4000, 1]⟩ .f32) (x9 : FVec Ideal ⟨2, ![1, 16]⟩ .f32)
    (p : Fin 4000) (q : Fin 16) :
    k3_pay1 (F := Ideal) x0 x2 x4 x9 (ix2 p q)
      = FloatOps.maximumf (FloatOps.addf (FloatOps.addf (x0 (ix2 p q)) (FloatOps.mulf (x2 (ix2 p q)) (x4 (ix2 p (0 : Fin 1)))))
          (x9 (ix2 (0 : Fin 1) q))) (Scalar.ofBits .f32 0x00000000#32) := by
  unfold k3_pay1
  simp only [shapeCast_self]
  show FloatOps.maximumf (FloatOps.addf (FloatOps.addf (x0 (ix2 p q)) (FloatOps.mulf (x2 (ix2 p q))
      (broadcastTo S4000x16 x4 broadcasts_S4000x1_S4000x16 (ix2 p q))))
      (broadcastTo S4000x16 x9 broadcasts_S1x16_S4000x16 (ix2 p q))) (Scalar.ofBits .f32 0x00000000#32) = _
  rw [KeepdimsColumn.broadcastTo_a1_ab_apply, broadcastTo_1b_ab_apply]

/-- The index maps over the grid: the three row-blocked inputs and the output start at row `4000 · t`; the bias row's
    block is the whole row. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 4000000 in
/-- What point `t` writes back is block `t` of the whole output array. -/
theorem flushed3_eq (c : Dev nD) (t : Fin cfg3.N) :
    (dat3 V c).flushed 4 t = ((cfg3.win 4).blk t).view.read (Elt Ideal)
      (comb3 (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz3]
  simp only [View.ld_unit_zero (S := S4000x16) hz3, View.ld_unit_zero (S := S4000x1) hz3, View.ld_unit_zero (S := S1x16) hz3]
  obtain ⟨e0, e1, e2, e3, e4, e5, e6, e7, e8, e9⟩ := idx_facts3 t
  funext j
  obtain ⟨p, q, rfl⟩ : ∃ (p : Fin 4000) (q : Fin 16), j = ix2 p q := ⟨j 0, j 1, eq_ix2 j⟩
  have hp := p.isLt; have hq := q.isLt; have ht : t.val < 25 := t.isLt
  have hr : t.val * 4000 + p.val < 100000 := by omega
  show k3_pay1 (F := Ideal) (iblk3 V c 0 t) (iblk3 V c 1 t) (iblk3 V c 2 t) (iblk3 V c 3 t) (ix2 p q)
    = comb3 (V c (Pipeline.arrRef spec3 0)) (V c (Pipeline.arrRef spec3 1)) (V c (Pipeline.arrRef spec3 2)) (V c (Pipeline.arrRef spec3 3))
        (((cfg3.win 4).blk t).view.emb (ix2 p q))
  have hemb : ((cfg3.win 4).blk t).view.emb (ix2 p q) = ix2 (⟨t.val * 4000 + p.val, hr⟩ : Fin 100000) q := by
    funext a; apply Fin.ext
    match a with
    | ⟨0, _⟩ => show win3_4.index t (0 : Fin 2) * 4000 + 1 * p.val = t.val * 4000 + p.val; omega
    | ⟨1, _⟩ => show win3_4.index t (1 : Fin 2) * 16 + 1 * q.val = q.val; omega
  have h0 : iblk3 V c 0 t (ix2 p q) = V c (Pipeline.arrRef spec3 0) (ix2 (⟨t.val * 4000 + p.val, hr⟩ : Fin 100000) q) := by
    show V c (Pipeline.arrRef spec3 0) (((cfg3.win 0).blk t).view.emb (ix2 p q)) = _
    refine congrArg (V c (Pipeline.arrRef spec3 0)) ?_
    funext a; apply Fin.ext
    match a with
    | ⟨0, _⟩ => show win3_0.index t (0 : Fin 2) * 4000 + 1 * p.val = t.val * 4000 + p.val; omega
    | ⟨1, _⟩ => show win3_0.index t (1 : Fin 2) * 16 + 1 * q.val = q.val; omega
  have h1 : iblk3 V c 1 t (ix2 p q) = V c (Pipeline.arrRef spec3 1) (ix2 (⟨t.val * 4000 + p.val, hr⟩ : Fin 100000) q) := by
    show V c (Pipeline.arrRef spec3 1) (((cfg3.win 1).blk t).view.emb (ix2 p q)) = _
    refine congrArg (V c (Pipeline.arrRef spec3 1)) ?_
    funext a; apply Fin.ext
    match a with
    | ⟨0, _⟩ => show win3_1.index t (0 : Fin 2) * 4000 + 1 * p.val = t.val * 4000 + p.val; omega
    | ⟨1, _⟩ => show win3_1.index t (1 : Fin 2) * 16 + 1 * q.val = q.val; omega
  have h2 : iblk3 V c 2 t (ix2 p (0 : Fin 1)) = V c (Pipeline.arrRef spec3 2) (ix2 (⟨t.val * 4000 + p.val, hr⟩ : Fin 100000) (0 : Fin 1)) := by
    show V c (Pipeline.arrRef spec3 2) (((cfg3.win 2).blk t).view.emb (ix2 p (0 : Fin 1))) = _
    refine congrArg (V c (Pipeline.arrRef spec3 2)) ?_
    funext a; apply Fin.ext
    match a with
    | ⟨0, _⟩ => show win3_2.index t (0 : Fin 2) * 4000 + 1 * p.val = t.val * 4000 + p.val; omega
    | ⟨1, _⟩ => show win3_2.index t (1 : Fin 2) * 1 + 1 * 0 = 0; omega
  have h3 : iblk3 V c 3 t (ix2 (0 : Fin 1) q) = V c (Pipeline.arrRef spec3 3) (ix2 (0 : Fin 1) q) := by
    show V c (Pipeline.arrRef spec3 3) (((cfg3.win 3).blk t).view.emb (ix2 (0 : Fin 1) q)) = _
    refine congrArg (V c (Pipeline.arrRef spec3 3)) ?_
    funext a; apply Fin.ext
    match a with
    | ⟨0, _⟩ => show win3_3.index t (0 : Fin 2) * 1 + 1 * 0 = 0; omega
    | ⟨1, _⟩ => show win3_3.index t (1 : Fin 2) * 16 + 1 * q.val = q.val; omega
  rw [hemb, comb3_ix2]
  refine (pay3_at (iblk3 V c 0 t) (iblk3 V c 1 t) (iblk3 V c 2 t) (iblk3 V c 3 t) p q).trans ?_
  rw [h0, h1, h2, h3]
  rfl

/-- An index of the output array is in point `t`'s block iff its row is one of the block's 4000 rows. -/
theorem mem_blk3 (t : Fin cfg3.N) (i : S100000x16.Idx) :
    i ∈ ((cfg3.win 4).blk t).view.set ↔ ∀ a : Fin 2, win3_4.index t a * S4000x16.size a ≤ (i a).val ∧ (i a).val < win3_4.index t a * S4000x16.size a + S4000x16.size a := by
  show i ∈ ((View.whole main_v59).slice (win3_4.rect t)).set ↔ _
  rw [View.set_slice_whole, Rect.mem_set_unit]
  exact Iff.rfl

/-- Every row lies in the block of the point `row / 4000`. -/
theorem cover3 (i : S100000x16.Idx) : ∃ t : Fin cfg3.N, (cfg3.win 4).flush t = true ∧ i ∈ ((cfg3.win 4).blk t).view.set := by
  have hi0 : (i 0).val < 100000 := (i 0).isLt
  have hi1 : (i 1).val < 16 := (i 1).isLt
  refine ⟨⟨(i 0).val / 4000, by show _ < 25; omega⟩, flush3_4 _, ?_⟩
  rw [mem_blk3]
  obtain ⟨e0, e1, e2, e3, e4, e5, e6, e7, e8, e9⟩ := idx_facts3 ⟨(i 0).val / 4000, by show _ < 25; omega⟩
  intro a
  match a with
  | ⟨0, _⟩ => show win3_4.index _ (0 : Fin 2) * 4000 ≤ (i 0).val ∧ (i 0).val < win3_4.index _ (0 : Fin 2) * 4000 + 4000; rw [e8]; show (i 0).val / 4000 * 4000 ≤ _ ∧ _ < (i 0).val / 4000 * 4000 + 4000; omega
  | ⟨1, _⟩ => show win3_4.index _ (1 : Fin 2) * 16 ≤ (i 1).val ∧ (i 1).val < win3_4.index _ (1 : Fin 2) * 16 + 16; rw [e9]; omega

/-- THE OUTPUT ARRAY after the launch: the one function of the launch's four input arrays as it found them. -/
theorem final3 (c : Dev nD) : (dat3 V c).arrAt 4 cfg3.N
    = comb3 (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_eq V c t) (cover3)

end Cert.KernelIdeal.KValue

end
-- ==== Proof.LsmBlock.lean ====
/-
  A block's row-wise log-softmax read at an entry.

  For a [4000, 40] block Z the body takes each row's maximum M (a lane reduction from −∞), subtracts it, exponentiates,
  sums each row (a lane reduction from 0), takes the logarithm and subtracts again. At entry (p, q) this is
  (Z(p,q) − M p) − log (Σ_k exp (Z(p,k) − M p)) with M p the maximum of row p: nothing outside row p is read.
-/
import proofs.«175323_j78374563217803_1_alg».proof.Proof.Gen.KernelIdeal.Frame
import proofs.«175323_j78374563217803_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's last eleven operations, on the block `Z` of pre-activations. -/
def lsmVec (Z : FVec Ideal S4000x40 .f32) : FVec Ideal S4000x40 .f32 :=
  have v13 : FVec Ideal S4000 .f32 := multiReduction .maximumf [1] S4000 Z 0xFF800000#32 reduces_S4000x40_S4000 (.inl rfl) rfl
  have v14 : FVec Ideal S4000x1 .f32 := shapeCast S4000x1 v13 shapeCasts_S4000_S4000x1
  have v15 : FVec Ideal S4000x40 .f32 := broadcastTo S4000x40 v14 broadcasts_S4000x1_S4000x40
  have v16 : FVec Ideal S4000x40 .f32 := subf Z v15
  have v17 : FVec Ideal S4000x40 .f32 := exp v16
  have v18 : FVec Ideal S4000 .f32 := multiReduction .add [1] S4000 v17 0x00000000#32 reduces_S4000x40_S4000 (.inl rfl) rfl
  have v19 : FVec Ideal S4000x1 .f32 := shapeCast S4000x1 v18 shapeCasts_S4000_S4000x1
  have v20 : FVec Ideal S4000x1 .f32 := log v19
  have v21 : FVec Ideal S4000x40 .f32 := broadcastTo S4000x40 v20 broadcasts_S4000x1_S4000x40
  subf v16 v21

/-- The maximum of row `p`, folded from −∞. -/
def rowMax (Z : FVec Ideal ⟨2, ![4000, 40]⟩ .f32) (p : Fin 4000) : Ideal .f32 :=
  (Finset.univ : Finset (Fin 40)).fold max (FloatOps.ofBits .f32 0xFF800000#32) (fun k => Z (ix2 p k))

/-- The inserted index of the lane reductions: row `p`, lane `k`. -/
theorem lift_eq (p : Fin 4000) (k : Fin 40) :
    (reduces_S4000x40_S4000 : S4000x40.Reduces [1] S4000).lift (ix1 p) k = ix2 p k :=
  funext fun a => Fin.ext (by match a with | ⟨0, _⟩ => rfl | ⟨1, _⟩ => rfl)

theorem log_at {s : Shape} {φ : FTy} (v : FVec Ideal s φ) (i : s.Idx) : log v i = FloatOps.log (v i) := rfl
theorem exp_at {s : Shape} {φ : FTy} (v : FVec Ideal s φ) (i : s.Idx) : exp v i = FloatOps.exp (v i) := rfl

/-- A row's maximum by the lane reduction from −∞. -/
theorem rowmax_at (Z : FVec Ideal ⟨2, ![4000, 40]⟩ .f32) (p : Fin 4000) :
    multiReduction .maximumf [1] S4000 Z 0xFF800000#32 reduces_S4000x40_S4000 (.inl rfl) rfl (ix1 p) = rowMax Z p := by
  refine (Ideal.multiReduction_maximumf_single Z 0xFF800000#32 reduces_S4000x40_S4000 (.inl rfl) rfl (ix1 p)).trans ?_
  unfold rowMax
  refine congrArg (fun f => (Finset.univ : Finset (Fin 40)).fold max (FloatOps.ofBits .f32 0xFF800000#32) f) ?_
  funext k
  exact congrArg Z (lift_eq p k)

/-- A row's sum by the lane reduction from 0. -/
theorem rowsum_at (Y : FVec Ideal ⟨2, ![4000, 40]⟩ .f32) (p : Fin 4000) :
    multiReduction .add [1] S4000 Y 0x00000000#32 reduces_S4000x40_S4000 (.inl rfl) rfl (ix1 p) = ∑ k : Fin 40, Y (ix2 p k) := by
  refine (Ideal.multiReduction_add_single Y 0x00000000#32 reduces_S4000x40_S4000 (.inl rfl) rfl (ix1 p)).trans ?_
  exact Finset.sum_congr rfl fun k _ => congrArg Y (lift_eq p k)

theorem lsmVec_at (Z : FVec Ideal ⟨2, ![4000, 40]⟩ .f32) (p : Fin 4000) (q : Fin 40) :
    lsmVec Z (ix2 p q)
      = (Z (ix2 p q) - rowMax Z p) - FloatOps.log (∑ k : Fin 40, FloatOps.exp (Z (ix2 p k) - rowMax Z p)) := by
  unfold lsmVec
  simp only [subf_apply, log_at, KeepdimsColumn.broadcastTo_a1_ab_apply, KeepdimsColumn.shapeCast_a_a1_apply]
  rw [rowmax_at, rowsum_at]
  simp only [subf_apply, exp_at, KeepdimsColumn.broadcastTo_a1_ab_apply, KeepdimsColumn.shapeCast_a_a1_apply]
  rw [rowmax_at]

end Cert.KernelIdeal.KValue

end
-- ==== Proof.RegionCB5.lean ====
/-
  Launch 5 adds the self-loop term and the bias to the aggregated messages and takes a row-wise log-softmax.

  At each of the 25 blocks of 4000 rows the body forms the pre-activation Z = (agg + h · w) + b — `agg`, `h` the block's
  rows of the aggregated messages and of the projected features, `w` the block's rows of the one-column self-loop weight
  repeated across the 40 classes, `b` the one bias row repeated down the rows — and then, row by row,
  (Z − max Z) − log Σ exp (Z − max Z) over the 40 classes. Every entry depends on one row of the whole arrays, so block
  by block the output array ends holding that one function of the four whole arrays.
-/
import proofs.«175323_j78374563217803_1_alg».proof.Proof.Gen.KernelIdeal.Frame
import proofs.«175323_j78374563217803_1_alg».proof.Proof.LibKeepdimsColumn
import proofs.«175323_j78374563217803_1_alg».proof.Proof.LsmBlock
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The pre-activation (agg + h · w) + b at row `r`, class `k`. -/
def preAt5 (agg h : FVec Ideal ⟨2, ![100000, 40]⟩ .f32) (w : FVec Ideal ⟨2, ![100000, 1]⟩ .f32) (b : FVec Ideal ⟨2, ![1, 40]⟩ .f32)
    (r : Fin 100000) (k : Fin 40) : Ideal .f32 :=
  (agg (ix2 r k) + h (ix2 r k) * w (ix2 r (0 : Fin 1))) + b (ix2 (0 : Fin 1) k)

/-- Row `r`'s greatest pre-activation, folded from −∞. -/
def rowMaxAt5 (agg h : FVec Ideal ⟨2, ![100000, 40]⟩ .f32) (w : FVec Ideal ⟨2, ![100000, 1]⟩ .f32) (b : FVec Ideal ⟨2, ![1, 40]⟩ .f32)
    (r : Fin 100000) : Ideal .f32 :=
  (Finset.univ : Finset (Fin 40)).fold max (FloatOps.ofBits .f32 0xFF800000#32) (fun k => preAt5 agg h w b r k)

/-- The log-softmax of row `r` at class `q`. -/
def combAt5 (agg h : FVec Ideal ⟨2, ![100000, 40]⟩ .f32) (w : FVec Ideal ⟨2, ![100000, 1]⟩ .f32) (b : FVec Ideal ⟨2, ![1, 40]⟩ .f32)
    (r : Fin 100000) (q : Fin 40) : Ideal .f32 :=
  (preAt5 agg h w b r q - rowMaxAt5 agg h w b r)
    - FloatOps.log (∑ k : Fin 40, FloatOps.exp (preAt5 agg h w b r k - rowMaxAt5 agg h w b r))

/-- The whole output array. -/
def comb5 (agg h : FVec Ideal ⟨2, ![100000, 40]⟩ .f32) (w : FVec Ideal ⟨2, ![100000, 1]⟩ .f32) (b : FVec Ideal ⟨2, ![1, 40]⟩ .f32) :
    FVec Ideal ⟨2, ![100000, 40]⟩ .f32 :=
  fun i => combAt5 agg h w b ⟨(i 0).val, (i 0).isLt⟩ ⟨(i 1).val, (i 1).isLt⟩

theorem comb5_ix2 (agg h : FVec Ideal ⟨2, ![100000, 40]⟩ .f32) (w : FVec Ideal ⟨2, ![100000, 1]⟩ .f32) (b : FVec Ideal ⟨2, ![1, 40]⟩ .f32)
    (r : Fin 100000) (q : Fin 40) : comb5 agg h w b (ix2 r q) = combAt5 agg h w b r q := rfl

/-- The block of pre-activations the body forms from the four blocks it loads. -/
def Zb (x0 x2 : FVec Ideal ⟨2, ![4000, 40]⟩ .f32) (x4 : FVec Ideal ⟨2, ![4000, 1]⟩ .f32) (x9 : FVec Ideal ⟨2, ![1, 40]⟩ .f32) :
    FVec Ideal S4000x40 .f32 :=
  addf (addf x0 (mulf x2 (broadcastTo S4000x40 x4 broadcasts_S4000x1_S4000x40))) (broadcastTo S4000x40 x9 broadcasts_S1x40_S4000x40)

theorem Zb_at (x0 x2 : FVec Ideal ⟨2, ![4000, 40]⟩ .f32) (x4 : FVec Ideal ⟨2, ![4000, 1]⟩ .f32) (x9 : FVec Ideal ⟨2, ![1, 40]⟩ .f32)
    (p : Fin 4000) (k : Fin 40) :
    Zb x0 x2 x4 x9 (ix2 p k) = (x0 (ix2 p k) + x2 (ix2 p k) * x4 (ix2 p (0 : Fin 1))) + x9 (ix2 (0 : Fin 1) k) := by
  unfold Zb
  simp only [addf_apply, mulf_apply, KeepdimsColumn.broadcastTo_a1_ab_apply, broadcastTo_1b_ab_apply]

/-- The body is the row-wise log-softmax of that block. -/
theorem k5_pay1_eq (x0 x2 : FVec Ideal ⟨2, ![4000, 40]⟩ .f32) (x4 : FVec Ideal ⟨2, ![4000, 1]⟩ .f32) (x9 : FVec Ideal ⟨2, ![1, 40]⟩ .f32) :
    k5_pay1 (F := Ideal) x0 x2 x4 x9 = lsmVec (Zb x0 x2 x4 x9) := by
  unfold k5_pay1 lsmVec Zb
  simp only [shapeCast_self]

/-- The body's value at `(p, q)` of a block whose row `p` is row `r` of the whole arrays. -/
theorem pay5_at (A H : FVec Ideal ⟨2, ![100000, 40]⟩ .f32) (D : FVec Ideal ⟨2, ![100000, 1]⟩ .f32) (B : FVec Ideal ⟨2, ![1, 40]⟩ .f32)
    (x0 x2 : FVec Ideal ⟨2, ![4000, 40]⟩ .f32) (x4 : FVec Ideal ⟨2, ![4000, 1]⟩ .f32) (x9 : FVec Ideal ⟨2, ![1, 40]⟩ .f32)
    (p : Fin 4000) (q : Fin 40) (r : Fin 100000)
    (h0 : ∀ k : Fin 40, x0 (ix2 p k) = A (ix2 r k)) (h1 : ∀ k : Fin 40, x2 (ix2 p k) = H (ix2 r k))
    (h2 : x4 (ix2 p (0 : Fin 1)) = D (ix2 r (0 : Fin 1))) (h3 : ∀ k : Fin 40, x9 (ix2 (0 : Fin 1) k) = B (ix2 (0 : Fin 1) k)) :
    k5_pay1 (F := Ideal) x0 x2 x4 x9 (ix2 p q) = combAt5 A H D B r q := by
  have hZ : ∀ k : Fin 40, Zb x0 x2 x4 x9 (ix2 p k) = preAt5 A H D B r k := fun k => by
    rw [Zb_at, h0 k, h1 k, h2, h3 k]; rfl
  have hM : rowMax (Zb x0 x2 x4 x9) p = rowMaxAt5 A H D B r := by
    unfold rowMax rowMaxAt5
    exact congrArg (fun f => (Finset.univ : Finset (Fin 40)).fold max (FloatOps.ofBits .f32 0xFF800000#32) f) (funext hZ)
  rw [k5_pay1_eq, lsmVec_at, hM, hZ q]
  unfold combAt5
  exact congrArg (fun s => preAt5 A H D B r q - rowMaxAt5 A H D B r - FloatOps.log s)
    (Finset.sum_congr rfl fun k _ => by rw [hZ k])

/-- The index maps over the grid: the three row-blocked inputs and the output start at row `4000 · t`; the bias row's
    block is the whole row. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 4000000 in
/-- What point `t` writes back is block `t` of the whole output array. -/
theorem flushed5_eq (c : Dev nD) (t : Fin cfg5.N) :
    (dat5 V c).flushed 4 t = ((cfg5.win 4).blk t).view.read (Elt Ideal)
      (comb5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz5]
  simp only [View.ld_unit_zero (S := S4000x40) hz5, View.ld_unit_zero (S := S4000x1) hz5, View.ld_unit_zero (S := S1x40) hz5]
  obtain ⟨e0, e1, e2, e3, e4, e5, e6, e7, e8, e9⟩ := idx_facts5 t
  funext j
  obtain ⟨p, q, rfl⟩ : ∃ (p : Fin 4000) (q : Fin 40), j = ix2 p q := ⟨j 0, j 1, eq_ix2 j⟩
  have hp := p.isLt; have hq := q.isLt; have ht : t.val < 25 := t.isLt
  have hr : t.val * 4000 + p.val < 100000 := by omega
  show k5_pay1 (F := Ideal) (iblk5 V c 0 t) (iblk5 V c 1 t) (iblk5 V c 2 t) (iblk5 V c 3 t) (ix2 p q)
    = comb5 (V c (Pipeline.arrRef spec5 0)) (V c (Pipeline.arrRef spec5 1)) (V c (Pipeline.arrRef spec5 2)) (V c (Pipeline.arrRef spec5 3))
        (((cfg5.win 4).blk t).view.emb (ix2 p q))
  have hemb : ((cfg5.win 4).blk t).view.emb (ix2 p q) = ix2 (⟨t.val * 4000 + p.val, hr⟩ : Fin 100000) q := by
    funext a; apply Fin.ext
    match a with
    | ⟨0, _⟩ => show win5_4.index t (0 : Fin 2) * 4000 + 1 * p.val = t.val * 4000 + p.val; omega
    | ⟨1, _⟩ => show win5_4.index t (1 : Fin 2) * 40 + 1 * q.val = q.val; omega
  have h0 : ∀ k : Fin 40, iblk5 V c 0 t (ix2 p k) = V c (Pipeline.arrRef spec5 0) (ix2 (⟨t.val * 4000 + p.val, hr⟩ : Fin 100000) k) := fun k => by
    have hk := k.isLt
    show V c (Pipeline.arrRef spec5 0) (((cfg5.win 0).blk t).view.emb (ix2 p k)) = _
    refine congrArg (V c (Pipeline.arrRef spec5 0)) ?_
    funext a; apply Fin.ext
    match a with
    | ⟨0, _⟩ => show win5_0.index t (0 : Fin 2) * 4000 + 1 * p.val = t.val * 4000 + p.val; omega
    | ⟨1, _⟩ => show win5_0.index t (1 : Fin 2) * 40 + 1 * k.val = k.val; omega
  have h1 : ∀ k : Fin 40, iblk5 V c 1 t (ix2 p k) = V c (Pipeline.arrRef spec5 1) (ix2 (⟨t.val * 4000 + p.val, hr⟩ : Fin 100000) k) := fun k => by
    have hk := k.isLt
    show V c (Pipeline.arrRef spec5 1) (((cfg5.win 1).blk t).view.emb (ix2 p k)) = _
    refine congrArg (V c (Pipeline.arrRef spec5 1)) ?_
    funext a; apply Fin.ext
    match a with
    | ⟨0, _⟩ => show win5_1.index t (0 : Fin 2) * 4000 + 1 * p.val = t.val * 4000 + p.val; omega
    | ⟨1, _⟩ => show win5_1.index t (1 : Fin 2) * 40 + 1 * k.val = k.val; omega
  have h2 : iblk5 V c 2 t (ix2 p (0 : Fin 1)) = V c (Pipeline.arrRef spec5 2) (ix2 (⟨t.val * 4000 + p.val, hr⟩ : Fin 100000) (0 : Fin 1)) := by
    show V c (Pipeline.arrRef spec5 2) (((cfg5.win 2).blk t).view.emb (ix2 p (0 : Fin 1))) = _
    refine congrArg (V c (Pipeline.arrRef spec5 2)) ?_
    funext a; apply Fin.ext
    match a with
    | ⟨0, _⟩ => show win5_2.index t (0 : Fin 2) * 4000 + 1 * p.val = t.val * 4000 + p.val; omega
    | ⟨1, _⟩ => show win5_2.index t (1 : Fin 2) * 1 + 1 * 0 = 0; omega
  have h3 : ∀ k : Fin 40, iblk5 V c 3 t (ix2 (0 : Fin 1) k) = V c (Pipeline.arrRef spec5 3) (ix2 (0 : Fin 1) k) := fun k => by
    have hk := k.isLt
    show V c (Pipeline.arrRef spec5 3) (((cfg5.win 3).blk t).view.emb (ix2 (0 : Fin 1) k)) = _
    refine congrArg (V c (Pipeline.arrRef spec5 3)) ?_
    funext a; apply Fin.ext
    match a with
    | ⟨0, _⟩ => show win5_3.index t (0 : Fin 2) * 1 + 1 * 0 = 0; omega
    | ⟨1, _⟩ => show win5_3.index t (1 : Fin 2) * 40 + 1 * k.val = k.val; omega
  rw [hemb, comb5_ix2]
  exact pay5_at (V c (Pipeline.arrRef spec5 0)) (V c (Pipeline.arrRef spec5 1)) (V c (Pipeline.arrRef spec5 2)) (V c (Pipeline.arrRef spec5 3))
    (iblk5 V c 0 t) (iblk5 V c 1 t) (iblk5 V c 2 t) (iblk5 V c 3 t) p q ⟨t.val * 4000 + p.val, hr⟩ h0 h1 h2 h3

/-- An index of the output array is in point `t`'s block iff its row is one of the block's 4000 rows. -/
theorem mem_blk5 (t : Fin cfg5.N) (i : S100000x40.Idx) :
    i ∈ ((cfg5.win 4).blk t).view.set ↔ ∀ a : Fin 2, win5_4.index t a * S4000x40.size a ≤ (i a).val ∧ (i a).val < win5_4.index t a * S4000x40.size a + S4000x40.size a := by
  show i ∈ ((View.whole main_v75).slice (win5_4.rect t)).set ↔ _
  rw [View.set_slice_whole, Rect.mem_set_unit]
  exact Iff.rfl

/-- Every row lies in the block of the point `row / 4000`. -/
theorem cover5 (i : S100000x40.Idx) : ∃ t : Fin cfg5.N, (cfg5.win 4).flush t = true ∧ i ∈ ((cfg5.win 4).blk t).view.set := by
  have hi0 : (i 0).val < 100000 := (i 0).isLt
  have hi1 : (i 1).val < 40 := (i 1).isLt
  refine ⟨⟨(i 0).val / 4000, by show _ < 25; omega⟩, flush5_4 _, ?_⟩
  rw [mem_blk5]
  obtain ⟨e0, e1, e2, e3, e4, e5, e6, e7, e8, e9⟩ := idx_facts5 ⟨(i 0).val / 4000, by show _ < 25; omega⟩
  intro a
  match a with
  | ⟨0, _⟩ => show win5_4.index _ (0 : Fin 2) * 4000 ≤ (i 0).val ∧ (i 0).val < win5_4.index _ (0 : Fin 2) * 4000 + 4000; rw [e8]; show (i 0).val / 4000 * 4000 ≤ _ ∧ _ < (i 0).val / 4000 * 4000 + 4000; omega
  | ⟨1, _⟩ => show win5_4.index _ (1 : Fin 2) * 40 ≤ (i 1).val ∧ (i 1).val < win5_4.index _ (1 : Fin 2) * 40 + 40; rw [e9]; omega

/-- THE OUTPUT ARRAY after the launch: the one function of the launch's four input arrays as it found them. -/
theorem final5 (c : Dev nD) : (dat5 V c).arrAt 4 cfg5.N
    = comb5 (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_eq V c t) (cover5)

end Cert.KernelIdeal.KValue

end
-- ==== Proof.RefRaw.lean ====
/-
  The reference's graph convolution with the scatter positions read as given.

  The reference wraps a negative target node number once (d ↦ d + N) before every scatter-add; where every target
  number is already non-negative the wrap does nothing, and each scatter-add lands on the target numbers as given.
  Stated here, for such target numbers: the inverse square-root degree vector, the per-edge weight
  (the product of the two end nodes' inverse square-root degrees), the squared inverse square-root degree column of the
  self-loop term, and the three layers' aggregations — a scatter-add, into zeros at the target nodes, of the
  source nodes' projected rows times the edge weights — each as the same operations applied at the unwrapped target column.
  The three layers recompute the degree data from the same edge list, so one form serves all three.
-/
import proofs.«175323_j78374563217803_1_alg».proof.Proof.RefRead

noncomputable section

namespace Cert.ReferenceIdeal.Raw

open Cert.ReferenceIdeal Cert.ReferenceIdeal.Gen Cert.ReferenceIdeal.ReadP Idealize.ShloMosaic

variable {F : FTy → Type} [FloatOps F]

/-- The target node numbers as given, as a column of scatter positions. -/
def dstCol (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

/-- 1 / sqrt (1 + the number of edges arriving at each node). -/
def dinv (x1 : (⟨S2x1600000, .i32⟩ : BufTy).Contents (Elt F)) : (⟨S100000, .f32⟩ : BufTy).Contents (Elt F) :=
  Host.rsqrt (addf (Host.scatterAdd scatter_S100000_S1600000x1_S1600000_n_0_0_1 (val_main_v5 (F := F)) (dstCol (F := F) x1)
    (val_main_v12 (F := F))) (val_main_v14 (F := F)))

/-- The edge weight: the product of the inverse square-root degrees of an edge's two end nodes. -/
def norm (x1 : (⟨S2x1600000, .i32⟩ : BufTy).Contents (Elt F)) : (⟨S1600000, .f32⟩ : BufTy).Contents (Elt F) :=
  mulf (Host.gather gather_S100000_S1600000x1_S1600000_n_0_n_n_0_1_1 (dinv (F := F) x1) (val_main_v22 (F := F) x1))
    (Host.gather gather_S100000_S1600000x1_S1600000_n_0_n_n_0_1_1 (dinv (F := F) x1) (val_main_v29 (F := F) x1))

/-- The self-loop weight 1 / (1 + degree), as a column. -/
def dinv2 (x1 : (⟨S2x1600000, .i32⟩ : BufTy).Contents (Elt F)) : (⟨S100000x1, .f32⟩ : BufTy).Contents (Elt F) :=
  broadcastInDim S100000x1 ![0] bcast_S100000_S100000x1_0 (mulf (dinv (F := F) x1) (dinv (F := F) x1))

/-- The edge weights repeated across a row of features. -/
def normCol (x1 : (⟨S2x1600000, .i32⟩ : BufTy).Contents (Elt F)) : (⟨S1600000x1, .f32⟩ : BufTy).Contents (Elt F) :=
  broadcastInDim S1600000x1 ![0] bcast_S1600000_S1600000x1_0 (norm (F := F) x1)

/-- Layer 1's aggregation of the projected rows `h`: Σ over the edges into a node of weight · h[source]. -/
def agg64 (x1 : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1600000x1_S1600000x64_1_0_0_1 (val_main_v42 (F := F)) (dstCol (F := F) x1)
    (mulf (Host.gather gather_S100000x64_S1600000x1_S1600000x64_1_0_n_n_0_1_164 h (val_main_v37 (F := F) x1))
      (broadcastInDim S1600000x64 ![0, 1] bcast_S1600000x1_S1600000x64_0_1 (normCol (F := F) x1)))

/-- Layer 2's aggregation. -/
def agg16 (x1 : (⟨S2x1600000, .i32⟩ : BufTy).Contents (Elt F)) (h : (⟨S100000x16, .f32⟩ : BufTy).Contents (Elt F)) :
    (⟨S100000x16, .f32⟩ : BufTy).Contents (Elt F) :=
  Host.scatterAdd scatter_S100000x16_S1600000x1_S1600000x16_1_0_0_1 (val_main_v97 (F := F)) (dstCol (F := F) x1)
    (mulf (Host.gather gather_S100000x16_S1600000x1_S1600000x16_1_0_n_n_0_1_116 h (val_main_v92 (F := F) x1))
      (broadcastInDim S1600000x16 ![0, 1] bcast_S1600000x1_S1600000x16_0_1 (normCol (F := F) x1)))

/-- Layer 3's aggregation. -/
def agg40 (x1 : (⟨S2x1600000, .i32⟩ : BufTy).Contents (Elt F)) (h : (⟨S100000x40, .f32⟩ : BufTy).Contents (Elt F)) :
    (⟨S100000x40, .f32⟩ : BufTy).Contents (Elt F) :=
  Host.scatterAdd scatter_S100000x40_S1600000x1_S1600000x40_1_0_0_1 (val_main_v152 (F := F)) (dstCol (F := F) x1)
    (mulf (Host.gather gather_S100000x40_S1600000x1_S1600000x40_1_0_n_n_0_1_140 h (val_main_v147 (F := F) x1))
      (broadcastInDim S1600000x40 ![0, 1] bcast_S1600000x1_S1600000x40_0_1 (normCol (F := F) x1)))

variable (x1 : (⟨S2x1600000, .i32⟩ : BufTy).Contents (Elt F))

/-- The hypothesis: wrapping the target numbers once changes none of them. -/
abbrev Unwrapped : Prop := val_main_v10 (F := F) x1 = val_main_v3 (F := F) x1

variable {x1}

theorem v11_eq (H : Unwrapped (F := F) x1) : val_main_v11 (F := F) x1 = dstCol (F := F) x1 := by
  unfold val_main_v11 dstCol; rw [H]

theorem v16_eq (H : Unwrapped (F := F) x1) : val_main_v16 (F := F) x1 = dinv (F := F) x1 := by
  unfold val_main_v16 val_main_v15 val_main_v13 dinv; rw [v11_eq H]

theorem v71_eq (H : Unwrapped (F := F) x1) : val_main_v71 (F := F) x1 = dinv (F := F) x1 :=
  (show val_main_v71 (F := F) x1 = val_main_v16 (F := F) x1 from rfl).trans (v16_eq H)

theorem v126_eq (H : Unwrapped (F := F) x1) : val_main_v126 (F := F) x1 = dinv (F := F) x1 :=
  (show val_main_v126 (F := F) x1 = val_main_v16 (F := F) x1 from rfl).trans (v16_eq H)

theorem v31_eq (H : Unwrapped (F := F) x1) : val_main_v31 (F := F) x1 = norm (F := F) x1 := by
  unfold val_main_v31 val_main_v23 val_main_v30 norm; rw [v16_eq H]

theorem v39_eq (H : Unwrapped (F := F) x1) : val_main_v39 (F := F) x1 = normCol (F := F) x1 := by
  unfold val_main_v39 normCol; rw [v31_eq H]

theorem v94_eq (H : Unwrapped (F := F) x1) : val_main_v94 (F := F) x1 = normCol (F := F) x1 :=
  (show val_main_v94 (F := F) x1 = val_main_v39 (F := F) x1 from rfl).trans (v39_eq H)

theorem v149_eq (H : Unwrapped (F := F) x1) : val_main_v149 (F := F) x1 = normCol (F := F) x1 :=
  (show val_main_v149 (F := F) x1 = val_main_v39 (F := F) x1 from rfl).trans (v39_eq H)

theorem v51_eq (H : Unwrapped (F := F) x1) : val_main_v51 (F := F) x1 = dinv2 (F := F) x1 := by
  unfold val_main_v51 val_main_v50 dinv2; rw [v16_eq H]

theorem v106_eq (H : Unwrapped (F := F) x1) : val_main_v106 (F := F) x1 = dinv2 (F := F) x1 :=
  (show val_main_v106 (F := F) x1 = val_main_v51 (F := F) x1 from rfl).trans (v51_eq H)

theorem v161_eq (H : Unwrapped (F := F) x1) : val_main_v161 (F := F) x1 = dinv2 (F := F) x1 :=
  (show val_main_v161 (F := F) x1 = val_main_v51 (F := F) x1 from rfl).trans (v51_eq H)

theorem v48_eq (H : Unwrapped (F := F) x1) : val_main_v48 (F := F) x1 = dstCol (F := F) x1 :=
  (show val_main_v48 (F := F) x1 = val_main_v11 (F := F) x1 from rfl).trans (v11_eq H)

theorem v103_eq (H : Unwrapped (F := F) x1) : val_main_v103 (F := F) x1 = dstCol (F := F) x1 :=
  (show val_main_v103 (F := F) x1 = val_main_v11 (F := F) x1 from rfl).trans (v11_eq H)

theorem v158_eq (H : Unwrapped (F := F) x1) : val_main_v158 (F := F) x1 = dstCol (F := F) x1 :=
  (show val_main_v158 (F := F) x1 = val_main_v11 (F := F) x1 from rfl).trans (v11_eq H)

theorem v49_eq (H : Unwrapped (F := F) x1) (x0 : (⟨S100000x512, .f32⟩ : BufTy).Contents (Elt F)) (x2 : (⟨S512x64, .f32⟩ : BufTy).Contents (Elt F)) :
    val_main_v49 (F := F) x0 x1 x2 = agg64 (F := F) x1 (val_main_v4 (F := F) x0 x2) := by
  unfold val_main_v49 val_main_v41 val_main_v38 val_main_v40 agg64; rw [v48_eq H, v39_eq H]

theorem v104_eq (H : Unwrapped (F := F) x1) (x0 : (⟨S100000x512, .f32⟩ : BufTy).Contents (Elt F)) (x2 : (⟨S512x64, .f32⟩ : BufTy).Contents (Elt F))
    (x3 : (⟨S64, .f32⟩ : BufTy).Contents (Elt F)) (x4 : (⟨S64x16, .f32⟩ : BufTy).Contents (Elt F)) :
    val_main_v104 (F := F) x0 x1 x2 x3 x4 = agg16 (F := F) x1 (val_main_v59 (F := F) x0 x1 x2 x3 x4) := by
  unfold val_main_v104 val_main_v96 val_main_v93 val_main_v95 agg16; rw [v103_eq H, v94_eq H]

theorem v159_eq (H : Unwrapped (F := F) x1) (x0 : (⟨S100000x512, .f32⟩ : BufTy).Contents (Elt F)) (x2 : (⟨S512x64, .f32⟩ : BufTy).Contents (Elt F))
    (x3 : (⟨S64, .f32⟩ : BufTy).Contents (Elt F)) (x4 : (⟨S64x16, .f32⟩ : BufTy).Contents (Elt F))
    (x5 : (⟨S16, .f32⟩ : BufTy).Contents (Elt F)) (x6 : (⟨S16x40, .f32⟩ : BufTy).Contents (Elt F)) :
    val_main_v159 (F := F) x0 x1 x2 x3 x4 x5 x6 = agg40 (F := F) x1 (val_main_v114 (F := F) x0 x1 x2 x3 x4 x5 x6) := by
  unfold val_main_v159 val_main_v151 val_main_v148 val_main_v150 agg40; rw [v158_eq H, v149_eq H]

end Cert.ReferenceIdeal.Raw

end
-- ==== Proof.KernelChain.lean ====
/-
  The kernel program's result, read back boundary by boundary.

  From the launch memory: the first stretch of host operations computes the source and target node numbers, the edge
  weights and the self-loop weight column from the edge list; launch 0 multiplies the node features by the first weight
  matrix; each later stretch gathers the projected rows at the source nodes, scales them by the edge weights and
  scatter-adds them at the target nodes; each combine launch adds the self-loop term and the bias and applies the
  layer's activation; each product launch multiplies by the next weight matrix. A buffer that a stretch or a launch does
  not write keeps its contents across it. Reading the fold of boundary contents back in this order gives the result
  array as one composition of those whole-array functions of the eight argument arrays.
-/
import proofs.«175323_j78374563217803_1_alg».proof.Proof.Gen.KernelIdeal.Frame
import proofs.«175323_j78374563217803_1_alg».proof.Proof.RegionMM0
import proofs.«175323_j78374563217803_1_alg».proof.Proof.RegionMM2
import proofs.«175323_j78374563217803_1_alg».proof.Proof.RegionMM4
import proofs.«175323_j78374563217803_1_alg».proof.Proof.RegionCB1
import proofs.«175323_j78374563217803_1_alg».proof.Proof.RegionCB3
import proofs.«175323_j78374563217803_1_alg».proof.Proof.RegionCB5
import proofs.«175323_j78374563217803_1_alg».proof.Proof.RefRaw

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.StableHlo (after_cons after_nil)
open Cert.ReferenceIdeal.ReadP Cert.ReferenceIdeal.Raw

/-- A stretch of host operations leaves a buffer it does not write as it found it. -/
macro "stretch_skip" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## After the first stretch -/

theorem W1_arg0 : W1 m ρ c (Proc.devRef .tc main_arg0) = m ((c : Thread nD τ).loc main_arg0) := by stretch_skip hostOps0
theorem W1_arg2 : W1 m ρ c (Proc.devRef .tc main_arg2) = m ((c : Thread nD τ).loc main_arg2) := by stretch_skip hostOps0
theorem W1_arg3 : W1 m ρ c (Proc.devRef .tc main_arg3) = m ((c : Thread nD τ).loc main_arg3) := by stretch_skip hostOps0
theorem W1_arg4 : W1 m ρ c (Proc.devRef .tc main_arg4) = m ((c : Thread nD τ).loc main_arg4) := by stretch_skip hostOps0
theorem W1_arg5 : W1 m ρ c (Proc.devRef .tc main_arg5) = m ((c : Thread nD τ).loc main_arg5) := by stretch_skip hostOps0
theorem W1_arg6 : W1 m ρ c (Proc.devRef .tc main_arg6) = m ((c : Thread nD τ).loc main_arg6) := by stretch_skip hostOps0
theorem W1_arg7 : W1 m ρ c (Proc.devRef .tc main_arg7) = m ((c : Thread nD τ).loc main_arg7) := by stretch_skip hostOps0

set_option maxHeartbeats 4000000 in
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

set_option maxHeartbeats 4000000 in
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 4000000 in
theorem W1_v25 : W1 m ρ c (Proc.devRef .tc main_v25) = norm (F := Ideal) (m ((c : Thread nD τ).loc main_arg1)) := by
  show StableHlo.after hostOps0 (W0 m ρ c) (Proc.devRef .tc main_v25) = _
  after_results_simp
  rfl

set_option maxHeartbeats 4000000 in
theorem W1_v27 : W1 m ρ c (Proc.devRef .tc main_v27) = dinv2 (F := Ideal) (m ((c : Thread nD τ).loc main_arg1)) := by
  show StableHlo.after hostOps0 (W0 m ρ c) (Proc.devRef .tc main_v27) = _
  after_results_simp
  rfl

/-! ## The stages as functions of the eight argument arrays -/

section Stages
variable (a0 : FVec Ideal ⟨2, ![100000, 512]⟩ .f32) (a1 : (⟨Cert.ReferenceIdeal.S2x1600000, .i32⟩ : BufTy).Contents (Elt Ideal))
  (a2 : FVec Ideal ⟨2, ![512, 64]⟩ .f32) (a3 : FVec Ideal ⟨1, ![64]⟩ .f32) (a4 : FVec Ideal ⟨2, ![64, 16]⟩ .f32)
  (a5 : FVec Ideal ⟨1, ![16]⟩ .f32) (a6 : FVec Ideal ⟨2, ![16, 40]⟩ .f32) (a7 : FVec Ideal ⟨1, ![40]⟩ .f32)

/-- Layer 1's output: the clamped sum of the aggregation, the self-loop term and the bias. -/
def layer1 : FVec Ideal ⟨2, ![100000, 64]⟩ .f32 :=
  comb1 (agg64 (F := Ideal) a1 (prod0 a0 a2)) (prod0 a0 a2) (dinv2 (F := Ideal) a1) (shapeCast S1x64 a3 shapeCasts_S64_S1x64)

/-- Layer 2's output. -/
def layer2 : FVec Ideal ⟨2, ![100000, 16]⟩ .f32 :=
  comb3 (agg16 (F := Ideal) a1 (prod2 (layer1 a0 a1 a2 a3) a4)) (prod2 (layer1 a0 a1 a2 a3) a4) (dinv2 (F := Ideal) a1)
    (shapeCast S1x16 a5 shapeCasts_S16_S1x16)

/-- Layer 3's output: the row-wise log-softmax of the aggregation plus the self-loop term plus the bias. -/
def layer3 : FVec Ideal ⟨2, ![100000, 40]⟩ .f32 :=
  comb5 (agg40 (F := Ideal) a1 (prod4 (layer2 a0 a1 a2 a3 a4 a5) a6)) (prod4 (layer2 a0 a1 a2 a3 a4 a5) a6) (dinv2 (F := Ideal) a1)
    (shapeCast S1x40 a7 shapeCasts_S40_S1x40)
end Stages

/-! ## What every later boundary still holds of the first stretch's results and of the arguments -/

theorem W2_v1 : W2 m ρ c (Proc.devRef .tc main_v1) = val_main_v1 (F := Ideal) (m ((c : Thread nD τ).loc main_arg1)) := (W2_of_ne m ρ c main_v1 (by decide)).trans (W1_v1 m ρ c)
theorem W2_v3 : W2 m ρ c (Proc.devRef .tc main_v3) = val_main_v3 (F := Ideal) (m ((c : Thread nD τ).loc main_arg1)) := (W2_of_ne m ρ c main_v3 (by decide)).trans (W1_v3 m ρ c)
theorem W2_v25 : W2 m ρ c (Proc.devRef .tc main_v25) = norm (F := Ideal) (m ((c : Thread nD τ).loc main_arg1)) := (W2_of_ne m ρ c main_v25 (by decide)).trans (W1_v25 m ρ c)
theorem W2_v27 : W2 m ρ c (Proc.devRef .tc main_v27) = dinv2 (F := Ideal) (m ((c : Thread nD τ).loc main_arg1)) := (W2_of_ne m ρ c main_v27 (by decide)).trans (W1_v27 m ρ c)
theorem W3_v1 : W3 m ρ c (Proc.devRef .tc main_v1) = val_main_v1 (F := Ideal) (m ((c : Thread nD τ).loc main_arg1)) := (by stretch_skip hostOps1 : W3 m ρ c (Proc.devRef .tc main_v1) = W2 m ρ c (Proc.devRef .tc main_v1)).trans (W2_v1 m ρ c)
theorem W3_v3 : W3 m ρ c (Proc.devRef .tc main_v3) = val_main_v3 (F := Ideal) (m ((c : Thread nD τ).loc main_arg1)) := (by stretch_skip hostOps1 : W3 m ρ c (Proc.devRef .tc main_v3) = W2 m ρ c (Proc.devRef .tc main_v3)).trans (W2_v3 m ρ c)
theorem W3_v25 : W3 m ρ c (Proc.devRef .tc main_v25) = norm (F := Ideal) (m ((c : Thread nD τ).loc main_arg1)) := (by stretch_skip hostOps1 : W3 m ρ c (Proc.devRef .tc main_v25) = W2 m ρ c (Proc.devRef .tc main_v25)).trans (W2_v25 m ρ c)
theorem W3_v27 : W3 m ρ c (Proc.devRef .tc main_v27) = dinv2 (F := Ideal) (m ((c : Thread nD τ).loc main_arg1)) := (by stretch_skip hostOps1 : W3 m ρ c (Proc.devRef .tc main_v27) = W2 m ρ c (Proc.devRef .tc main_v27)).trans (W2_v27 m ρ c)
theorem W4_v1 : W4 m ρ c (Proc.devRef .tc main_v1) = val_main_v1 (F := Ideal) (m ((c : Thread nD τ).loc main_arg1)) := (W4_of_ne m ρ c main_v1 (by decide)).trans (W3_v1 m ρ c)
theorem W4_v3 : W4 m ρ c (Proc.devRef .tc main_v3) = val_main_v3 (F := Ideal) (m ((c : Thread nD τ).loc main_arg1)) := (W4_of_ne m ρ c main_v3 (by decide)).trans (W3_v3 m ρ c)
theorem W4_v25 : W4 m ρ c (Proc.devRef .tc main_v25) = norm (F := Ideal) (m ((c : Thread nD τ).loc main_arg1)) := (W4_of_ne m ρ c main_v25 (by decide)).trans (W3_v25 m ρ c)
theorem W4_v27 : W4 m ρ c (Proc.devRef .tc main_v27) = dinv2 (F := Ideal) (m ((c : Thread nD τ).loc main_arg1)) := ((W4_arr m ρ c 2).trans (((dat1 (V3 m ρ) c).arrAt_in 2 rfl _).trans (A_eq1 (V3 m ρ) c 2))).trans (W3_v27 m ρ c)
theorem W5_v1 : W5 m ρ c (Proc.devRef .tc main_v1) = val_main_v1 (F := Ideal) (m ((c : Thread nD τ).loc main_arg1)) := (W5_of_ne m ρ c main_v1 (by decide)).trans (W4_v1 m ρ c)
theorem W5_v3 : W5 m ρ c (Proc.devRef .tc main_v3) = val_main_v3 (F := Ideal) (m ((c : Thread nD τ).loc main_arg1)) := (W5_of_ne m ρ c main_v3 (by decide)).trans (W4_v3 m ρ c)
theorem W5_v25 : W5 m ρ c (Proc.devRef .tc main_v25) = norm (F := Ideal) (m ((c : Thread nD τ).loc main_arg1)) := (W5_of_ne m ρ c main_v25 (by decide)).trans (W4_v25 m ρ c)
theorem W5_v27 : W5 m ρ c (Proc.devRef .tc main_v27) = dinv2 (F := Ideal) (m ((c : Thread nD τ).loc main_arg1)) := (W5_of_ne m ρ c main_v27 (by decide)).trans (W4_v27 m ρ c)
theorem W6_v1 : W6 m ρ c (Proc.devRef .tc main_v1) = val_main_v1 (F := Ideal) (m ((c : Thread nD τ).loc main_arg1)) := (by stretch_skip hostOps3 : W6 m ρ c (Proc.devRef .tc main_v1) = W5 m ρ c (Proc.devRef .tc main_v1)).trans (W5_v1 m ρ c)
theorem W6_v3 : W6 m ρ c (Proc.devRef .tc main_v3) = val_main_v3 (F := Ideal) (m ((c : Thread nD τ).loc main_arg1)) := (by stretch_skip hostOps3 : W6 m ρ c (Proc.devRef .tc main_v3) = W5 m ρ c (Proc.devRef .tc main_v3)).trans (W5_v3 m ρ c)
theorem W6_v25 : W6 m ρ c (Proc.devRef .tc main_v25) = norm (F := Ideal) (m ((c : Thread nD τ).loc main_arg1)) := (by stretch_skip hostOps3 : W6 m ρ c (Proc.devRef .tc main_v25) = W5 m ρ c (Proc.devRef .tc main_v25)).trans (W5_v25 m ρ c)
theorem W6_v27 : W6 m ρ c (Proc.devRef .tc main_v27) = dinv2 (F := Ideal) (m ((c : Thread nD τ).loc main_arg1)) := (by stretch_skip hostOps3 : W6 m ρ c (Proc.devRef .tc main_v27) = W5 m ρ c (Proc.devRef .tc main_v27)).trans (W5_v27 m ρ c)
theorem W7_v1 : W7 m ρ c (Proc.devRef .tc main_v1) = val_main_v1 (F := Ideal) (m ((c : Thread nD τ).loc main_arg1)) := (W7_of_ne m ρ c main_v1 (by decide)).trans (W6_v1 m ρ c)
theorem W7_v3 : W7 m ρ c (Proc.devRef .tc main_v3) = val_main_v3 (F := Ideal) (m ((c : Thread nD τ).loc main_arg1)) := (W7_of_ne m ρ c main_v3 (by decide)).trans (W6_v3 m ρ c)
theorem W7_v25 : W7 m ρ c (Proc.devRef .tc main_v25) = norm (F := Ideal) (m ((c : Thread nD τ).loc main_arg1)) := (W7_of_ne m ρ c main_v25 (by decide)).trans (W6_v25 m ρ c)
theorem W7_v27 : W7 m ρ c (Proc.devRef .tc main_v27) = dinv2 (F := Ideal) (m ((c : Thread nD τ).loc main_arg1)) := ((W7_arr m ρ c 2).trans (((dat3 (V6 m ρ) c).arrAt_in 2 rfl _).trans (A_eq3 (V6 m ρ) c 2))).trans (W6_v27 m ρ c)
theorem W8_v1 : W8 m ρ c (Proc.devRef .tc main_v1) = val_main_v1 (F := Ideal) (m ((c : Thread nD τ).loc main_arg1)) := (W8_of_ne m ρ c main_v1 (by decide)).trans (W7_v1 m ρ c)
theorem W8_v3 : W8 m ρ c (Proc.devRef .tc main_v3) = val_main_v3 (F := Ideal) (m ((c : Thread nD τ).loc main_arg1)) := (W8_of_ne m ρ c main_v3 (by decide)).trans (W7_v3 m ρ c)
theorem W8_v25 : W8 m ρ c (Proc.devRef .tc main_v25) = norm (F := Ideal) (m ((c : Thread nD τ).loc main_arg1)) := (W8_of_ne m ρ c main_v25 (by decide)).trans (W7_v25 m ρ c)
theorem W8_v27 : W8 m ρ c (Proc.devRef .tc main_v27) = dinv2 (F := Ideal) (m ((c : Thread nD τ).loc main_arg1)) := (W8_of_ne m ρ c main_v27 (by decide)).trans (W7_v27 m ρ c)
theorem W9_v27 : W9 m ρ c (Proc.devRef .tc main_v27) = dinv2 (F := Ideal) (m ((c : Thread nD τ).loc main_arg1)) := (by stretch_skip hostOps5 : W9 m ρ c (Proc.devRef .tc main_v27) = W8 m ρ c (Proc.devRef .tc main_v27)).trans (W8_v27 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W3_arg4 : W3 m ρ c (Proc.devRef .tc main_arg4) = (m ((c : Thread nD τ).loc main_arg4)) := (by stretch_skip hostOps1 : W3 m ρ c (Proc.devRef .tc main_arg4) = W2 m ρ c (Proc.devRef .tc main_arg4)).trans (W2_arg4 m ρ c)
theorem W4_arg4 : W4 m ρ c (Proc.devRef .tc main_arg4) = (m ((c : Thread nD τ).loc main_arg4)) := (W4_of_ne m ρ c main_arg4 (by decide)).trans (W3_arg4 m ρ c)
theorem W2_arg5 : W2 m ρ c (Proc.devRef .tc main_arg5) = (m ((c : Thread nD τ).loc main_arg5)) := (W2_of_ne m ρ c main_arg5 (by decide)).trans (W1_arg5 m ρ c)
theorem W3_arg5 : W3 m ρ c (Proc.devRef .tc main_arg5) = (m ((c : Thread nD τ).loc main_arg5)) := (by stretch_skip hostOps1 : W3 m ρ c (Proc.devRef .tc main_arg5) = W2 m ρ c (Proc.devRef .tc main_arg5)).trans (W2_arg5 m ρ c)
theorem W4_arg5 : W4 m ρ c (Proc.devRef .tc main_arg5) = (m ((c : Thread nD τ).loc main_arg5)) := (W4_of_ne m ρ c main_arg5 (by decide)).trans (W3_arg5 m ρ c)
theorem W5_arg5 : W5 m ρ c (Proc.devRef .tc main_arg5) = (m ((c : Thread nD τ).loc main_arg5)) := (W5_of_ne m ρ c main_arg5 (by decide)).trans (W4_arg5 m ρ c)
theorem W2_arg6 : W2 m ρ c (Proc.devRef .tc main_arg6) = (m ((c : Thread nD τ).loc main_arg6)) := (W2_of_ne m ρ c main_arg6 (by decide)).trans (W1_arg6 m ρ c)
theorem W3_arg6 : W3 m ρ c (Proc.devRef .tc main_arg6) = (m ((c : Thread nD τ).loc main_arg6)) := (by stretch_skip hostOps1 : W3 m ρ c (Proc.devRef .tc main_arg6) = W2 m ρ c (Proc.devRef .tc main_arg6)).trans (W2_arg6 m ρ c)
theorem W4_arg6 : W4 m ρ c (Proc.devRef .tc main_arg6) = (m ((c : Thread nD τ).loc main_arg6)) := (W4_of_ne m ρ c main_arg6 (by decide)).trans (W3_arg6 m ρ c)
theorem W5_arg6 : W5 m ρ c (Proc.devRef .tc main_arg6) = (m ((c : Thread nD τ).loc main_arg6)) := (W5_of_ne m ρ c main_arg6 (by decide)).trans (W4_arg6 m ρ c)
theorem W6_arg6 : W6 m ρ c (Proc.devRef .tc main_arg6) = (m ((c : Thread nD τ).loc main_arg6)) := (by stretch_skip hostOps3 : W6 m ρ c (Proc.devRef .tc main_arg6) = W5 m ρ c (Proc.devRef .tc main_arg6)).trans (W5_arg6 m ρ c)
theorem W7_arg6 : W7 m ρ c (Proc.devRef .tc main_arg6) = (m ((c : Thread nD τ).loc main_arg6)) := (W7_of_ne m ρ c main_arg6 (by decide)).trans (W6_arg6 m ρ c)
theorem W2_arg7 : W2 m ρ c (Proc.devRef .tc main_arg7) = (m ((c : Thread nD τ).loc main_arg7)) := (W2_of_ne m ρ c main_arg7 (by decide)).trans (W1_arg7 m ρ c)
theorem W3_arg7 : W3 m ρ c (Proc.devRef .tc main_arg7) = (m ((c : Thread nD τ).loc main_arg7)) := (by stretch_skip hostOps1 : W3 m ρ c (Proc.devRef .tc main_arg7) = W2 m ρ c (Proc.devRef .tc main_arg7)).trans (W2_arg7 m ρ c)
theorem W4_arg7 : W4 m ρ c (Proc.devRef .tc main_arg7) = (m ((c : Thread nD τ).loc main_arg7)) := (W4_of_ne m ρ c main_arg7 (by decide)).trans (W3_arg7 m ρ c)
theorem W5_arg7 : W5 m ρ c (Proc.devRef .tc main_arg7) = (m ((c : Thread nD τ).loc main_arg7)) := (W5_of_ne m ρ c main_arg7 (by decide)).trans (W4_arg7 m ρ c)
theorem W6_arg7 : W6 m ρ c (Proc.devRef .tc main_arg7) = (m ((c : Thread nD τ).loc main_arg7)) := (by stretch_skip hostOps3 : W6 m ρ c (Proc.devRef .tc main_arg7) = W5 m ρ c (Proc.devRef .tc main_arg7)).trans (W5_arg7 m ρ c)
theorem W7_arg7 : W7 m ρ c (Proc.devRef .tc main_arg7) = (m ((c : Thread nD τ).loc main_arg7)) := (W7_of_ne m ρ c main_arg7 (by decide)).trans (W6_arg7 m ρ c)
theorem W8_arg7 : W8 m ρ c (Proc.devRef .tc main_arg7) = (m ((c : Thread nD τ).loc main_arg7)) := (W8_of_ne m ρ c main_arg7 (by decide)).trans (W7_arg7 m ρ c)

/-! ## Layer 1 -/

theorem W2_v28 : W2 m ρ c (Proc.devRef .tc main_v28) = prod0 (m ((c : Thread nD τ).loc main_arg0)) (m ((c : Thread nD τ).loc main_arg2)) :=
  (W2_arr m ρ c 2).trans ((final0 (V1 m ρ) c).trans (congrArg₂ prod0 (W1_arg0 m ρ c) (W1_arg2 m ρ c)))

theorem W3_v28 : W3 m ρ c (Proc.devRef .tc main_v28) = prod0 (m ((c : Thread nD τ).loc main_arg0)) (m ((c : Thread nD τ).loc main_arg2)) :=
  (by stretch_skip hostOps1 : W3 m ρ c (Proc.devRef .tc main_v28) = W2 m ρ c (Proc.devRef .tc main_v28)).trans (W2_v28 m ρ c)

set_option maxHeartbeats 4000000 in
theorem W3_v41 : W3 m ρ c (Proc.devRef .tc main_v41) = agg64 (F := Ideal) (m ((c : Thread nD τ).loc main_arg1)) (prod0 (m ((c : Thread nD τ).loc main_arg0)) (m ((c : Thread nD τ).loc main_arg2))) := by
  show StableHlo.after hostOps1 (W2 m ρ c) (Proc.devRef .tc main_v41) = _
  after_results_simp
  rw [W2_v1, W2_v3, W2_v25, W2_v28]
  rfl

set_option maxHeartbeats 4000000 in
theorem W3_v42 : W3 m ρ c (Proc.devRef .tc main_v42) = shapeCast S1x64 (m ((c : Thread nD τ).loc main_arg3)) shapeCasts_S64_S1x64 := by
  show StableHlo.after hostOps1 (W2 m ρ c) (Proc.devRef .tc main_v42) = _
  after_results_simp
  rw [W2_arg3]
  rfl

theorem W4_v43 : W4 m ρ c (Proc.devRef .tc main_v43) = layer1 (m ((c : Thread nD τ).loc main_arg0)) (m ((c : Thread nD τ).loc main_arg1)) (m ((c : Thread nD τ).loc main_arg2)) (m ((c : Thread nD τ).loc main_arg3)) :=
  (W4_arr m ρ c 4).trans ((final1 (V3 m ρ) c).trans (by
    show comb1 (W3 m ρ c (Proc.devRef .tc main_v41)) (W3 m ρ c (Proc.devRef .tc main_v28)) (W3 m ρ c (Proc.devRef .tc main_v27)) (W3 m ρ c (Proc.devRef .tc main_v42)) = _
    rw [W3_v41, W3_v28, W3_v27, W3_v42]; rfl))

/-! ## Layer 2 -/

theorem W5_v44 : W5 m ρ c (Proc.devRef .tc main_v44) = prod2 (layer1 (m ((c : Thread nD τ).loc main_arg0)) (m ((c : Thread nD τ).loc main_arg1)) (m ((c : Thread nD τ).loc main_arg2)) (m ((c : Thread nD τ).loc main_arg3))) (m ((c : Thread nD τ).loc main_arg4)) :=
  (W5_arr m ρ c 2).trans ((final2 (V4 m ρ) c).trans (congrArg₂ prod2 (W4_v43 m ρ c) (W4_arg4 m ρ c)))

theorem W6_v44 : W6 m ρ c (Proc.devRef .tc main_v44) = prod2 (layer1 (m ((c : Thread nD τ).loc main_arg0)) (m ((c : Thread nD τ).loc main_arg1)) (m ((c : Thread nD τ).loc main_arg2)) (m ((c : Thread nD τ).loc main_arg3))) (m ((c : Thread nD τ).loc main_arg4)) :=
  (by stretch_skip hostOps3 : W6 m ρ c (Proc.devRef .tc main_v44) = W5 m ρ c (Proc.devRef .tc main_v44)).trans (W5_v44 m ρ c)

set_option maxHeartbeats 4000000 in
theorem W6_v57 : W6 m ρ c (Proc.devRef .tc main_v57) = agg16 (F := Ideal) (m ((c : Thread nD τ).loc main_arg1)) (prod2 (layer1 (m ((c : Thread nD τ).loc main_arg0)) (m ((c : Thread nD τ).loc main_arg1)) (m ((c : Thread nD τ).loc main_arg2)) (m ((c : Thread nD τ).loc main_arg3))) (m ((c : Thread nD τ).loc main_arg4))) := by
  show StableHlo.after hostOps3 (W5 m ρ c) (Proc.devRef .tc main_v57) = _
  after_results_simp
  rw [W5_v1, W5_v3, W5_v25, W5_v44]
  rfl

set_option maxHeartbeats 4000000 in
theorem W6_v58 : W6 m ρ c (Proc.devRef .tc main_v58) = shapeCast S1x16 (m ((c : Thread nD τ).loc main_arg5)) shapeCasts_S16_S1x16 := by
  show StableHlo.after hostOps3 (W5 m ρ c) (Proc.devRef .tc main_v58) = _
  after_results_simp
  rw [W5_arg5]
  rfl

theorem W7_v59 : W7 m ρ c (Proc.devRef .tc main_v59) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((final3 (V6 m ρ) c).trans (by
    show comb3 (W6 m ρ c (Proc.devRef .tc main_v57)) (W6 m ρ c (Proc.devRef .tc main_v44)) (W6 m ρ c (Proc.devRef .tc main_v27)) (W6 m ρ c (Proc.devRef .tc main_v58)) = _
    rw [W6_v57, W6_v44, W6_v27, W6_v58]; rfl))

/-! ## Layer 3 -/

theorem W8_v60 : W8 m ρ c (Proc.devRef .tc main_v60) = prod4 (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (W8_arr m ρ c 2).trans ((final4 (V7 m ρ) c).trans (congrArg₂ prod4 (W7_v59 m ρ c) (W7_arg6 m ρ c)))

theorem W9_v60 : W9 m ρ c (Proc.devRef .tc main_v60) = prod4 (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (by stretch_skip hostOps5 : W9 m ρ c (Proc.devRef .tc main_v60) = W8 m ρ c (Proc.devRef .tc main_v60)).trans (W8_v60 m ρ c)

set_option maxHeartbeats 4000000 in
theorem W9_v73 : W9 m ρ c (Proc.devRef .tc main_v73) = agg40 (F := Ideal) (m ((c : Thread nD τ).loc main_arg1)) (prod4 (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  show StableHlo.after hostOps5 (W8 m ρ c) (Proc.devRef .tc main_v73) = _
  after_results_simp
  rw [W8_v1, W8_v3, W8_v25, W8_v60]
  rfl

set_option maxHeartbeats 4000000 in
theorem W9_v74 : W9 m ρ c (Proc.devRef .tc main_v74) = shapeCast S1x40 (m ((c : Thread nD τ).loc main_arg7)) shapeCasts_S40_S1x40 := by
  show StableHlo.after hostOps5 (W8 m ρ c) (Proc.devRef .tc main_v74) = _
  after_results_simp
  rw [W8_arg7]
  rfl

/-- THE RESULT ARRAY at the last boundary: layer 3's output of the eight argument arrays as launched. -/
theorem W10_v75 : W10 m ρ c (Proc.devRef .tc main_v75) = layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 4).trans ((final5 (V9 m ρ) c).trans (by
    show comb5 (W9 m ρ c (Proc.devRef .tc main_v73)) (W9 m ρ c (Proc.devRef .tc main_v60)) (W9 m ρ c (Proc.devRef .tc main_v27)) (W9 m ρ c (Proc.devRef .tc main_v74)) = _
    rw [W9_v73, W9_v60, W9_v27, W9_v74]; rfl))

end Cert.KernelIdeal.KValue

end
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.RefValue.lean ====
/-
  The reference's run with its result named.

  The reference is one straight line of whole-array operations, the three activation helpers' operations standing
  in their calls' places. Every weakly fair execution ends with each buffer at the fold of the operations over the
  launch contents; read back through the line, the result buffer holds the last stage of the staged reading of the
  program — the log-softmax of the third layer's pre-activation — as a function of the eight argument arrays, and no
  operation writes an argument array. A helper's value passes through a buffer of the helper's own declared type;
  writing and reading back through that type is the identity.
-/
import proofs.«175323_j78374563217803_1_alg».proof.Proof.RefRead
import proofs.«175323_j78374563217803_1_alg».proof.Proof.LibTypedRefs

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 16384 in
set_option maxHeartbeats 91600000 in
/-- The result buffer after the line: the last stage, of the argument arrays as launched. -/
theorem result_eq (m : (ℓ : Loc nD τ sig) → Buf (Elt F) ℓ) (c : Dev nD) :
    after (ops (F := F)) (launchContents m c) (Proc.devRef .tc main_v168)
      = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp
  simp only [TypedRefs.ofBuf_toBuf, TypedRefs.toBuf_ofBuf]
  rfl

set_option maxRecDepth 16384 in
set_option maxHeartbeats 91600000 in
/-- Every weakly fair execution of the reference terminates with the result at the last stage of the argument arrays
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v168).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_after m ρ)

end Cert.ReferenceIdeal.RefValue

end
-- ==== Proof.PreDomain.lean ====
/-
  The stated domain: every target node number is non-negative.

  The precondition's last conjunct is `all (dst ≥ 0)` over the edge list's second row, read signed. A word that is
  non-negative as a signed number is not below zero, so the reference's wrap of negative node numbers — select
  (dst < 0) (dst + N) dst — returns dst itself at every edge.
-/
import proofs.«175323_j78374563217803_1_alg».proof.Proof.RefRaw
import proofs.«175323_j78374563217803_1_alg».proof.Pre_finite_inputs
import Idealize.ShloMosaic.Lib.ReduceAll
import Idealize.ShloMosaic.Lib.Affine

noncomputable section

namespace Cert.Proof.Domain

open Idealize.ShloMosaic

/-- A signed word that is ≥ 0 is returned unchanged by `select (a < 0) (a + n) a`. -/
theorem word_unwrapped (a n : BitVec 32) (h : IntOp.cmpi .sge a 0#32 = 1#1) :
    Scalar.select (IntOp.cmpi .slt a 0#32) (IntOp.addi a n) a = a := by
  have h1 : (0#32).sle a = true := by
    have h' : BitVec.ofBool ((0#32).sle a) = 1#1 := h
    cases hs : (0#32).sle a
    · rw [hs] at h'; exact absurd h' (by decide)
    · rfl
  have h2 : a.slt 0#32 = false := by
    rw [BitVec.sle, decide_eq_true_eq] at h1
    rw [BitVec.slt, decide_eq_false_iff_not]
    have : (0#32 : BitVec 32).toInt = 0 := by decide
    omega
  show (if BitVec.ofBool (a.slt 0#32) = 1 then IntOp.addi a n else a) = a
  rw [h2]
  rfl

instance : Subsingleton Cert.Pre_finite_inputs.S_.Idx := ⟨fun a b => funext fun d => d.elim0⟩

variable [hP : Cert.Pre_finite_inputs.Facts] [hR : Cert.ReferenceIdeal.Facts]

open Cert.ReferenceIdeal.ReadP in
/-- Under the precondition the reference's wrapped target numbers are the target numbers. -/
theorem unwrapped_of_pre (a0 : FVec Ideal Cert.Pre_finite_inputs.S100000x512 .f32) (a1 : IVec Cert.Pre_finite_inputs.S2x1600000 32)
    (a2 : FVec Ideal Cert.Pre_finite_inputs.S512x64 .f32) (a3 : FVec Ideal Cert.Pre_finite_inputs.S64 .f32)
    (a4 : FVec Ideal Cert.Pre_finite_inputs.S64x16 .f32) (a5 : FVec Ideal Cert.Pre_finite_inputs.S16 .f32)
    (a6 : FVec Ideal Cert.Pre_finite_inputs.S16x40 .f32) (a7 : FVec Ideal Cert.Pre_finite_inputs.S40 .f32)
    (h : Cert.Pre_finite_inputs.fn (F := Ideal) a0 a1 a2 a3 a4 a5 a6 a7 = fun _ => 1#1) :
    Cert.ReferenceIdeal.Raw.Unwrapped (F := Ideal) a1 := by
  have h0 := congrFun h (fun d => d.elim0)
  dsimp only [Cert.Pre_finite_inputs.fn, Cert.Pre_finite_inputs.fn_part1, Cert.Pre_finite_inputs.fn_part2] at h0
  have h1 := (IntOp.andi_eq_one.1 h0).2
  have hall := Host.reduce_andi_all _ _ _ _ _ h1
  funext e
  exact word_unwrapped _ _ (hall e)

end Cert.Proof.Domain

end
-- ==== Proof.Bridge.lean ====
/-
  The kernel program's stages are the reference's stages.

  Where wrapping the target node numbers changes nothing, the reference's three layers are, stage by stage, the
  compositions the kernel program computes: the same product of the features with the layer's weights; the same
  scatter-add at the target nodes of the projected rows gathered at the source nodes and scaled by the edge weights; and,
  entry by entry, the same sum of the aggregation, the self-loop term (the projected row times the node's squared inverse
  square-root degree) and the bias, clamped at zero in layers 1 and 2 and log-softmaxed along each row in layer 3. The
  reference repeats the self-loop weight across a row and the bias down the rows before adding, the kernel reads them
  at the row's and the column's coordinate: the same entry. The row maximum is a fold of max from −∞ on both sides, and
  the reference's further max with −∞ and its sum started from 0 change nothing.
-/
import proofs.«175323_j78374563217803_1_alg».proof.Proof.RefRaw
import proofs.«175323_j78374563217803_1_alg».proof.Proof.KernelChain
import Idealize.ShloMosaic.Lib.ValueLayout
import Idealize.ShloMosaic.PureOps.Ideal.Laws

set_option maxRecDepth 16384

noncomputable section

namespace Cert.Proof.Bridge

open Cert.ReferenceIdeal Cert.ReferenceIdeal.Gen Cert.ReferenceIdeal.ReadP Cert.ReferenceIdeal.Raw Cert.KernelIdeal.KValue
open Idealize.ShloMosaic Idealize.ShloMosaic.ValueIdx

variable {a0 : (⟨S100000x512, .f32⟩ : BufTy).Contents (Elt Ideal)} {a1 : (⟨S2x1600000, .i32⟩ : BufTy).Contents (Elt Ideal)}
  {a2 : (⟨S512x64, .f32⟩ : BufTy).Contents (Elt Ideal)} {a3 : (⟨S64, .f32⟩ : BufTy).Contents (Elt Ideal)}
  {a4 : (⟨S64x16, .f32⟩ : BufTy).Contents (Elt Ideal)} {a5 : (⟨S16, .f32⟩ : BufTy).Contents (Elt Ideal)}
  {a6 : (⟨S16x40, .f32⟩ : BufTy).Contents (Elt Ideal)} {a7 : (⟨S40, .f32⟩ : BufTy).Contents (Elt Ideal)}

/-- Layer 1's projection. -/
theorem prod0_eq : prod0 a0 a2 = val_main_v4 (F := Ideal) a0 a2 := rfl

set_option maxHeartbeats 4000000 in
/-- Layer 1. -/
theorem layer1_eq (H : Unwrapped (F := Ideal) a1) : layer1 a0 a1 a2 a3 = val_main_v58 (F := Ideal) a0 a1 a2 a3 := by
  funext i
  obtain ⟨r, q, rfl⟩ : ∃ (r : Fin 100000) (q : Fin 64), i = ix2 r q := ⟨i 0, i 1, eq_ix2 i⟩
  unfold layer1
  rw [comb1_ix2]
  unfold combAt1
  rw [val_main_v58_apply, val_main_v57_apply, val_main_v54_apply, val_main_v53_apply, val_main_v52_apply, val_main_v56_apply,
    val_main_v55_apply, val_main_call0_v0_apply, val_main_call0_cst_apply, v49_eq H, v51_eq H, shapeCast_a_1a_apply, ← prod0_eq]
  have e1 : idx_main_v52 (ix2 r q) = ix2 r (0 : Fin 1) := funext fun a => Fin.ext (by match a with | ⟨0, _⟩ => rfl | ⟨1, _⟩ => rfl)
  have e2 : idx_main_v55 (idx_main_v56 (ix2 r q)) = ix1 q := funext fun a => Fin.ext (by match a with | ⟨0, _⟩ => rfl)
  rw [e1, e2]

/-- Layer 2's projection. -/
theorem prod2_eq (H : Unwrapped (F := Ideal) a1) : prod2 (layer1 a0 a1 a2 a3) a4 = val_main_v59 (F := Ideal) a0 a1 a2 a3 a4 := by
  rw [layer1_eq H]; rfl

set_option maxHeartbeats 4000000 in
/-- Layer 2. -/
theorem layer2_eq (H : Unwrapped (F := Ideal) a1) : layer2 a0 a1 a2 a3 a4 a5 = val_main_v113 (F := Ideal) a0 a1 a2 a3 a4 a5 := by
  funext i
  obtain ⟨r, q, rfl⟩ : ∃ (r : Fin 100000) (q : Fin 16), i = ix2 r q := ⟨i 0, i 1, eq_ix2 i⟩
  unfold layer2
  rw [comb3_ix2, prod2_eq H]
  unfold combAt3
  rw [val_main_v113_apply, val_main_v112_apply, val_main_v109_apply, val_main_v108_apply, val_main_v107_apply, val_main_v111_apply,
    val_main_v110_apply, val_main_call1_v0_apply, val_main_call1_cst_apply, v104_eq H, v106_eq H, shapeCast_a_1a_apply]
  have e1 : idx_main_v107 (ix2 r q) = ix2 r (0 : Fin 1) := funext fun a => Fin.ext (by match a with | ⟨0, _⟩ => rfl | ⟨1, _⟩ => rfl)
  have e2 : idx_main_v110 (idx_main_v111 (ix2 r q)) = ix1 q := funext fun a => Fin.ext (by match a with | ⟨0, _⟩ => rfl)
  rw [e1, e2]

/-- Layer 3's projection. -/
theorem prod4_eq (H : Unwrapped (F := Ideal) a1) :
    prod4 (layer2 a0 a1 a2 a3 a4 a5) a6 = val_main_v114 (F := Ideal) a0 a1 a2 a3 a4 a5 a6 := by
  rw [layer2_eq H]; rfl

/-- The inserted index of the reference's row reductions: row `r`, class `k`. -/
theorem rlift_eq (h : S100000x40.Reduces [1] S100000) (r : Fin 100000) (k : Fin 40) : h.lift (ix1 r) k = ix2 r k :=
  funext fun a => Fin.ext (by match a with | ⟨0, _⟩ => rfl | ⟨1, _⟩ => rfl)

/-- −∞ is neutral for max. -/
theorem max_neg_inf (y : Ideal .f32) : max (Ideal.ofBits .f32 0xFF800000#32) y = y := by
  simp [Ideal.ofBits, Ideal.ieee]

/-- From −∞, the host's max-reduction of the rows of a [100000, 40] array, and one more max with −∞: row `r`'s greatest
    entry, as a fold. -/
theorem hostRowMax (Z : FVec Ideal ⟨2, ![100000, 40]⟩ .f32)
    (h' : (⟨2, ![100000, 40]⟩ : Shape).ReducesTo [1] (⟨1, ![100000]⟩ : Shape)) (hu : 0 < (⟨0, ![]⟩ : Shape).numel) (r : Fin 100000) :
    FloatOps.maximumf (F := Ideal) (FloatOps.ofBits .f32 0xFF800000#32)
        (Host.reduce FloatOps.maximumf Z (constant (F := Ideal) (⟨0, ![]⟩ : Shape) .f32 0xFF800000#32) h' hu (ix1 r))
      = (Finset.univ : Finset (Fin 40)).fold max (Ideal.ofBits .f32 0xFF800000#32) (fun k => Z (ix2 r k)) := by
  have hR : (⟨2, ![100000, 40]⟩ : Shape).Reduces [1] (⟨1, ![100000]⟩ : Shape) := by decide
  rw [Host.reduce_eq_fold_single FloatOps.maximumf Z _ h' hR hu]
  refine (max_neg_inf _).trans ?_
  refine congrArg (fun f => (Finset.univ : Finset (Fin 40)).fold max (Ideal.ofBits .f32 0xFF800000#32) f) ?_
  funext k
  exact congrArg Z (rlift_eq hR r k)

section Layer3

/-- The reference's third pre-activation at an entry. -/
theorem pre3_eq (H : Unwrapped (F := Ideal) a1) (r : Fin 100000) (k : Fin 40) :
    val_main_v167 (F := Ideal) a0 a1 a2 a3 a4 a5 a6 a7 (ix2 r k)
      = preAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r k := by
  unfold preAt5
  rw [val_main_v167_apply, val_main_v164_apply, val_main_v163_apply, val_main_v162_apply, val_main_v166_apply, val_main_v165_apply,
    v159_eq H, v161_eq H, shapeCast_a_1a_apply]
  have e1 : idx_main_v162 (ix2 r k) = ix2 r (0 : Fin 1) := funext fun a => Fin.ext (by match a with | ⟨0, _⟩ => rfl | ⟨1, _⟩ => rfl)
  have e2 : idx_main_v165 (idx_main_v166 (ix2 r k)) = ix1 k := funext fun a => Fin.ext (by match a with | ⟨0, _⟩ => rfl)
  rw [e1, e2]
  simp only [Ideal.addf_def, Ideal.mulf_def]

/-- The reference's row maximum. -/
theorem max3_eq (H : Unwrapped (F := Ideal) a1) (r : Fin 100000) :
    val_main_call2_v2 (F := Ideal) a0 a1 a2 a3 a4 a5 a6 a7 (ix1 r)
      = rowMaxAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r := by
  rw [val_main_call2_v2_apply, val_main_call2_v1_apply, val_main_call2_cst_0_apply]
  unfold val_main_call2_v0 val_main_call2_cst rowMaxAt5
  refine (hostRowMax (val_main_v167 (F := Ideal) a0 a1 a2 a3 a4 a5 a6 a7) reducesTo_S100000x40_S100000_d1 h_S_ r).trans ?_
  exact congrArg (fun f => (Finset.univ : Finset (Fin 40)).fold max (Ideal.ofBits .f32 0xFF800000#32) f)
    (funext fun k => pre3_eq H r k)

set_option maxHeartbeats 4000000 in
/-- Layer 3 and the log-softmax. -/
theorem layer3_eq (H : Unwrapped (F := Ideal) a1) : layer3 a0 a1 a2 a3 a4 a5 a6 a7 = val_main_v168 (F := Ideal) a0 a1 a2 a3 a4 a5 a6 a7 := by
  funext i
  obtain ⟨r, q, rfl⟩ : ∃ (r : Fin 100000) (q : Fin 40), i = ix2 r q := ⟨i 0, i 1, eq_ix2 i⟩
  unfold layer3
  rw [comb5_ix2, prod4_eq H]
  unfold combAt5
  have e3 : idx_main_call2_v3 (idx_main_call2_v4 (ix2 r q)) = ix1 r := funext fun a => Fin.ext (by match a with | ⟨0, _⟩ => rfl)
  have e8 : idx_main_call2_v8 (idx_main_call2_v10 (ix2 r q)) = ix1 r := funext fun a => Fin.ext (by match a with | ⟨0, _⟩ => rfl)
  have hsub : ∀ k : Fin 40, val_main_call2_v5 (F := Ideal) a0 a1 a2 a3 a4 a5 a6 a7 (ix2 r k)
      = preAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r k
        - rowMaxAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r := fun k => by
    have e3k : idx_main_call2_v3 (idx_main_call2_v4 (ix2 r k)) = ix1 r := funext fun a => Fin.ext (by match a with | ⟨0, _⟩ => rfl)
    rw [val_main_call2_v5_apply, val_main_call2_v4_apply, val_main_call2_v3_apply, e3k, max3_eq H r, pre3_eq H r k]
    rfl
  rw [val_main_v168_apply, val_main_call2_v10_apply, val_main_call2_v9_apply, val_main_call2_v8_apply, e8, val_main_call2_v7_apply,
    val_main_call2_cst_1_apply, hsub q]
  have hsum : (∑ k : Fin 40, val_main_call2_v6 (F := Ideal) a0 a1 a2 a3 a4 a5 a6 a7 (idx_main_call2_v7 (ix1 r) k))
      = ∑ k : Fin 40, FloatOps.exp (preAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r k
        - rowMaxAt5 (agg40 (F := Ideal) a1 (val_main_v114 (F := Ideal) a0 a1 a2 a3 a4 a5 a6)) (val_main_v114 (F := Ideal) a0 a1 a2 a3 a4 a5 a6)
          (dinv2 (F := Ideal) a1) (shapeCast Cert.KernelIdeal.S1x40 a7 Cert.KernelIdeal.Facts₀.shapeCasts_S40_S1x40) r) :=
    Finset.sum_congr rfl fun k _ => by
      have e7 : idx_main_call2_v7 (ix1 r) k = ix2 r k := funext fun a => Fin.ext (by match a with | ⟨0, _⟩ => rfl | ⟨1, _⟩ => rfl)
      rw [e7, val_main_call2_v6_apply, hsub k]; rfl
  rw [hsum]
  show _ = FloatOps.subf _ (FloatOps.hostUnary .log (Ideal.ofBits .f32 0x00000000#32 + _))
  rw [Ideal.ofBits_zero_f32, zero_add]
  rfl

end Layer3

end Cert.Proof.Bridge

end
-- ==== Proof.lean ====
/-
  A three-layer graph convolution on 100000 nodes and 1600000 edges: the tiled kernel program against the plain reference.

  Each layer is out = act (Â · (h W) + b) with Â = D^{-1/2} (A + I) D^{-1/2}: the features are multiplied by the layer's
  weights, every edge carries its source node's projected row, scaled by the product of the two end nodes' inverse
  square-root degrees, to its target node, where the rows are summed; the node's own projected row enters with weight
  1 / (1 + degree); the bias is added; the activation is a clamp at zero (layers 1, 2) or a row-wise log-softmax (layer 3).
  The kernel program computes the degree data once and does the products and the bias-and-activation steps in grid
  launches over 25 blocks of 4000 rows; the reference recomputes the degree data per layer and works on whole arrays.
  On the extended reals the two are the same composition of the same operations, one stage at a time — no law of
  arithmetic beyond max (−∞, y) = y and 0 + s = s is used, so finiteness of the float inputs is not used either.
  The one difference is in the scatter positions: the reference wraps a negative target node number once (d ↦ d + N)
  where the kernel program's segment sums take the numbers as given; the precondition's conjunct "every target node
  number is non-negative" makes the wrap the identity.

  The three frames: the two kernel programs' by their launch-by-launch frame, the reference's by its run. The
  idealization rewrote nothing, so `preserves` is trivial.
-/
import proofs.«175323_j78374563217803_1_alg».proof.Defs
import proofs.«175323_j78374563217803_1_alg».proof.Proof.Gen.Kernel
import proofs.«175323_j78374563217803_1_alg».proof.Proof.Gen.Kernel.Skeleton
import proofs.«175323_j78374563217803_1_alg».proof.Proof.Gen.Kernel.Launch
import proofs.«175323_j78374563217803_1_alg».proof.Proof.Gen.Kernel.Points
import proofs.«175323_j78374563217803_1_alg».proof.Proof.Gen.Kernel.Frame
import proofs.«175323_j78374563217803_1_alg».proof.Proof.Gen.KernelIdeal
import proofs.«175323_j78374563217803_1_alg».proof.Proof.Gen.KernelIdeal.Skeleton
import proofs.«175323_j78374563217803_1_alg».proof.Proof.Gen.KernelIdeal.Launch
import proofs.«175323_j78374563217803_1_alg».proof.Proof.Gen.KernelIdeal.Points
import proofs.«175323_j78374563217803_1_alg».proof.Proof.Gen.KernelIdeal.Frame
import proofs.«175323_j78374563217803_1_alg».proof.Proof.Gen.ReferenceIdeal
import proofs.«175323_j78374563217803_1_alg».proof.Proof.Gen.Pre_finite_inputs
import proofs.«175323_j78374563217803_1_alg».proof.Proof.KernelRun
import proofs.«175323_j78374563217803_1_alg».proof.Proof.KernelChain
import proofs.«175323_j78374563217803_1_alg».proof.Proof.RefValue
import proofs.«175323_j78374563217803_1_alg».proof.Proof.PreDomain
import proofs.«175323_j78374563217803_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- From memories agreeing on the arguments, with every target node number non-negative, both programs end with
    layer 3's log-softmax output of the argument arrays. -/
theorem algebraic : Cert.algebraic_KernelIdeal_ReferenceIdeal := by
  intro m ρ m' ρ' hpre hagree
  have H : ∀ c : Dev Cert.KernelIdeal.nD, Cert.ReferenceIdeal.Raw.Unwrapped (F := Ideal)
      (m ((c.tc : Thread Cert.KernelIdeal.nD Cert.KernelIdeal.τ).loc Cert.KernelIdeal.main_arg1)) :=
    fun c => Cert.Proof.Domain.unwrapped_of_pre _ _ _ _ _ _ _ _ (hpre c)
  refine ⟨fun c => Cert.KernelIdeal.Gen.W10 m ρ c (Proc.devRef .tc Cert.KernelIdeal.main_v75),
    Cert.KernelIdeal.KValue.run_value m ρ, ?_⟩
  refine (θ_run Cert.ReferenceIdeal.defs _ _).mono (fun _ h c => ⟨(h c).1.trans ?_, (h c).2⟩)
    (Cert.ReferenceIdeal.RefValue.run (F := Ideal) m' ρ')
  obtain ⟨g0, g1, g2, g3, g4, g5, g6, g7⟩ := hagree c
  rw [g0, g1, g2, g3, g4, g5, g6, g7]
  show _ = Cert.KernelIdeal.Gen.W10 m ρ c (Proc.devRef .tc Cert.KernelIdeal.main_v75)
  rw [Cert.KernelIdeal.KValue.W10_v75 m ρ c]
  exact (Cert.Proof.Bridge.layer3_eq (H c)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
